-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2x2048 : Shape := ⟨2, ![2, 2048]⟩
abbrev S4096x11008 : Shape := ⟨2, ![4096, 11008]⟩
abbrev S11008x4096 : Shape := ⟨2, ![11008, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg5 : FVec F S4096x11008 .f32) (main_arg6 : FVec F S4096x11008 .f32) (main_arg7 : FVec F S11008x4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S4096x11008 .f32 := Host.absf main_arg5
  let main_cst_6 : FVec F S_ .f32 := constant S_ .f32 0x7F800000#32
  let main_v20 : FVec F S4096x11008 .f32 := broadcastInDim S4096x11008 ![] bcast_S_S4096x11008 main_cst_6
  let main_v21 : IVec S4096x11008 1 := cmpf .olt main_v19 main_v20
  let main_c_7 : IVec S_ 1 := constantI S_ 1 1#1
  let main_v22 : IVec S_ 1 := (fun x v => Host.reduce IntOp.andi x v reducesTo_S4096x11008_S_d0_1 h_S_) main_v21 main_c_7
  let main_v23 : IVec S_ 1 := andi main_v18 main_v22
  let main_v24 : FVec F S4096x11008 .f32 := Host.absf main_arg6
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S11008x4096 .f32 := Host.absf main_arg7
  let main_cst_10 : FVec F S_ .f32 := constant S_ .f32 0x7F800000#32
  let main_v30 : FVec F S11008x4096 .f32 := broadcastInDim S11008x4096 ![] bcast_S_S11008x4096 main_cst_10
  let main_v31 : IVec S11008x4096 1 := cmpf .olt main_v29 main_v30
  let main_c_11 : IVec S_ 1 := constantI S_ 1 1#1
  let main_v32 : IVec S_ 1 := (fun x v => Host.reduce IntOp.andi x v reducesTo_S11008x4096_S_d0_1 h_S_) main_v31 main_c_11
  let main_v33 : IVec S_ 1 := andi main_v28 main_v32
  main_v33

def fn {F : FTy → Type} [FloatOps F] (main_arg0 : FVec F S2x2048x4096 .f32) (main_arg1 : IVec S2x2048 32) (main_arg2 : FVec F S4096x11008 .f32) (main_arg3 : FVec F S4096x11008 .f32) (main_arg4 : FVec F S11008x4096 .f32) (main_arg5 : FVec F S4096x11008 .f32) (main_arg6 : FVec F S4096x11008 .f32) (main_arg7 : FVec F S11008x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x11008 .f32 := Host.absf main_arg2
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096x11008 .f32 := Host.absf main_arg3
  let main_cst_2 : FVec F S_ .f32 := constant S_ .f32 0x7F800000#32
  let main_v10 : FVec F S4096x11008 .f32 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  let main_v14 : FVec F S11008x4096 .f32 := Host.absf main_arg4
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg5 main_arg6 main_arg7 main_v13 main_v16
-- ==== Kernel.lean ====
abbrev S2x2048x4096 : Shape := ⟨3, ![2, 2048, 4096]⟩
abbrev S2x2048 : Shape := ⟨2, ![2, 2048]⟩
abbrev S4096x11008 : Shape := ⟨2, ![4096, 11008]⟩
abbrev S11008x4096 : Shape := ⟨2, ![11008, 4096]⟩
abbrev S_ : Shape := ⟨0, ![]⟩
abbrev S2x2047 : Shape := ⟨2, ![2, 2047]⟩
abbrev S1 : Shape := ⟨1, ![1]⟩
abbrev S4096x4096 : Shape := ⟨2, ![4096, 4096]⟩
abbrev S4096x1 : Shape := ⟨2, ![4096, 1]⟩
abbrev S512x4096 : Shape := ⟨2, ![512, 4096]⟩
abbrev S512x1 : Shape := ⟨2, ![512, 1]⟩
abbrev S4096x128 : Shape := ⟨2, ![4096, 128]⟩
abbrev S128x4096 : Shape := ⟨2, ![128, 4096]⟩
abbrev S512x128 : Shape := ⟨2, ![512, 128]⟩

abbrev nBuf : Space → Nat
  | .hbm => 34
  | .vmem => 18
  | .smem => 0
  | _ => 0

abbrev bufTy : (tb : Table) → Fin (tcTables nBuf tb) → BufTy
  | .hbm, ⟨0, _⟩ => ⟨S2x2048x4096, .f32⟩
  | .hbm, ⟨1, _⟩ => ⟨S2x2048, .i32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S_, .i1⟩
  | .hbm, ⟨9, _⟩ => ⟨S2x2048, .i1⟩
  | .hbm, ⟨10, _⟩ => ⟨S2x2047, .i32⟩
  | .hbm, ⟨11, _⟩ => ⟨S_, .i32⟩
  | .hbm, ⟨12, _⟩ => ⟨S2x2047, .i32⟩
  | .hbm, ⟨13, _⟩ => ⟨S2x2047, .i1⟩
  | .hbm, ⟨14, _⟩ => ⟨S2x2047, .i32⟩
  | .hbm, ⟨15, _⟩ => ⟨S_, .i32⟩
  | .hbm, ⟨16, _⟩ => ⟨S2x2047, .i32⟩
  | .hbm, ⟨17, _⟩ => ⟨S2x2047, .i1⟩
  | .hbm, ⟨18, _⟩ => ⟨S2x2047, .i1⟩
  | .hbm, ⟨19, _⟩ => ⟨S_, .i32⟩
  | .hbm, ⟨20, _⟩ => ⟨S1, .i32⟩
  | .hbm, ⟨21, _⟩ => ⟨S2x2048, .i1⟩
  | .hbm, ⟨22, _⟩ => ⟨S4096x4096, .f32⟩
  | .hbm, ⟨23, _⟩ => ⟨S4096x4096, .bf16⟩
  | .hbm, ⟨24, _⟩ => ⟨S4096x1, .i1⟩
  | .hbm, ⟨25, _⟩ => ⟨S4096x1, .f32⟩
  | .hbm, ⟨26, _⟩ => ⟨S4096x11008, .bf16⟩
  | .hbm, ⟨27, _⟩ => ⟨S4096x11008, .bf16⟩
  | .hbm, ⟨28, _⟩ => ⟨S11008x4096, .bf16⟩
  | .hbm, ⟨29, _⟩ => ⟨S4096x11008, .bf16⟩
  | .hbm, ⟨30, _⟩ => ⟨S4096x11008, .bf16⟩
  | .hbm, ⟨31, _⟩ => ⟨S11008x4096, .bf16⟩
  | .hbm, ⟨32, _⟩ => ⟨S4096x4096, .f32⟩
  | .hbm, ⟨33, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S512x1, .f32⟩
  | .local _ .vmem, ⟨3, _⟩ => ⟨S512x1, .f32⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S128x4096, .bf16⟩
  | .local _ .vmem, ⟨9, _⟩ => ⟨S128x4096, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S128x4096, .bf16⟩
  | .local _ .vmem, ⟨15, _⟩ => ⟨S128x4096, .bf16⟩
  | .local _ .vmem, ⟨16, _⟩ => ⟨S512x4096, .f32⟩
  | .local _ .vmem, ⟨17, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S2x2048 : S_.BroadcastsInDim S2x2048 (![] : Fin 0 → Fin S2x2048.rank)
  slices_S2x2048_S2x2047_0_0 : S2x2048.Slices ![0, 0] S2x2047
  bcast_S_S2x2047 : S_.BroadcastsInDim S2x2047 (![] : Fin 0 → Fin S2x2047.rank)
  slices_S2x2048_S2x2047_0_1 : S2x2048.Slices ![0, 1] S2x2047
  bcast_S_S1 : S_.BroadcastsInDim S1 (![] : Fin 0 → Fin S1.rank)
  shapeCasts_S2x2048x4096_S4096x4096 : S2x2048x4096.ShapeCasts S4096x4096
  bitsLt_bf16_f32 : FTy.bits .bf16 < FTy.bits .f32
  shapeCasts_S2x2048_S4096x1 : S2x2048.ShapeCasts S4096x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S512x1_S512x128 : S512x1.Broadcasts S512x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S4096x4096_S2x2048x4096 : S4096x4096.ShapeCasts S2x2048x4096
  scatter_S2x2048_S1_S2x2047_01_n_1_0_wf : ScatterDims.WF S2x2048 S1 S2x2047 [0, 1] [] [1] 0
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x11008.size a
  hwx0_2 : ∀ i : grid0.Coords, EltTy.bits .bf16 = 32 ∨ (Rect.block (s := S4096x11008) S4096x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x11008.size a
  hwx0_3 : ∀ i : grid0.Coords, EltTy.bits .bf16 = 32 ∨ (Rect.block (s := S4096x11008) S4096x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S11008x4096.size a
  hwx0_4 : ∀ i : grid0.Coords, EltTy.bits .bf16 = 32 ∨ (Rect.block (s := S11008x4096) S128x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x11008.size a
  hwx0_5 : ∀ i : grid0.Coords, EltTy.bits .bf16 = 32 ∨ (Rect.block (s := S4096x11008) S4096x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S4096x11008.size a
  hwx0_6 : ∀ i : grid0.Coords, EltTy.bits .bf16 = 32 ∨ (Rect.block (s := S4096x11008) S4096x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S11008x4096.size a
  hwx0_7 : ∀ i : grid0.Coords, EltTy.bits .bf16 = 32 ∨ (Rect.block (s := S11008x4096) S128x4096.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x4096.size a ≤ S4096x4096.size a
  hwx0_8 : ∀ i : grid0.Coords, EltTy.bits .f32 = 32 ∨ (Rect.block (s := S4096x4096) S512x4096.size (cc0_transform_8 i) (hinb0_8 i)).WholeWords (EltTy.packing .f32)

variable [Facts₀]

def scatter_S2x2048_S1_S2x2047_01_n_1_0 : ScatterDims S2x2048 S1 S2x2047 where
  updateWindowDims := [0, 1]
  insertedWindowDims := []
  scatterDimsToOperandDims := [1]
  indexVectorDim := 0
  wf := scatter_S2x2048_S1_S2x2047_01_n_1_0_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v11) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S4096x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19) S128x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20) S512x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S2x2048 : Shape := ⟨2, ![2, 2048]⟩
abbrev S4096x11008 : Shape := ⟨2, ![4096, 11008]⟩
abbrev S11008x4096 : Shape := ⟨2, ![11008, 4096]⟩
abbrev S_ : Shape := ⟨0, ![]⟩
abbrev S2x2047 : Shape := ⟨2, ![2, 2047]⟩
abbrev S1 : Shape := ⟨1, ![1]⟩
abbrev S2x2048x11008 : Shape := ⟨3, ![2, 2048, 11008]⟩
abbrev S2x2048x1 : Shape := ⟨3, ![2, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048, .i32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S_, .i1⟩
  | .hbm, ⟨9, _⟩ => ⟨S2x2048, .i1⟩
  | .hbm, ⟨10, _⟩ => ⟨S2x2047, .i32⟩
  | .hbm, ⟨11, _⟩ => ⟨S_, .i32⟩
  | .hbm, ⟨12, _⟩ => ⟨S2x2047, .i32⟩
  | .hbm, ⟨13, _⟩ => ⟨S2x2047, .i1⟩
  | .hbm, ⟨14, _⟩ => ⟨S2x2047, .i32⟩
  | .hbm, ⟨15, _⟩ => ⟨S_, .i32⟩
  | .hbm, ⟨16, _⟩ => ⟨S2x2047, .i32⟩
  | .hbm, ⟨17, _⟩ => ⟨S2x2047, .i1⟩
  | .hbm, ⟨18, _⟩ => ⟨S2x2047, .i1⟩
  | .hbm, ⟨19, _⟩ => ⟨S_, .i32⟩
  | .hbm, ⟨20, _⟩ => ⟨S1, .i32⟩
  | .hbm, ⟨21, _⟩ => ⟨S2x2048, .i1⟩
  | .hbm, ⟨22, _⟩ => ⟨S2x2048x11008, .f32⟩
  | .hbm, ⟨23, _⟩ => ⟨S2x2048x11008, .f32⟩
  | .hbm, ⟨24, _⟩ => ⟨S2x2048x11008, .f32⟩
  | .hbm, ⟨25, _⟩ => ⟨S_, .f32⟩
  | .hbm, ⟨26, _⟩ => ⟨S2x2048x11008, .f32⟩
  | .hbm, ⟨27, _⟩ => ⟨S2x2048x11008, .f32⟩
  | .hbm, ⟨28, _⟩ => ⟨S_, .f32⟩
  | .hbm, ⟨29, _⟩ => ⟨S2x2048x11008, .f32⟩
  | .hbm, ⟨30, _⟩ => ⟨S2x2048x11008, .f32⟩
  | .hbm, ⟨31, _⟩ => ⟨S2x2048x11008, .f32⟩
  | .hbm, ⟨32, _⟩ => ⟨S2x2048x11008, .f32⟩
  | .hbm, ⟨33, _⟩ => ⟨S2x2048x11008, .f32⟩
  | .hbm, ⟨34, _⟩ => ⟨S2x2048x4096, .f32⟩
  | .hbm, ⟨35, _⟩ => ⟨S2x2048x11008, .f32⟩
  | .hbm, ⟨36, _⟩ => ⟨S2x2048x11008, .f32⟩
  | .hbm, ⟨37, _⟩ => ⟨S2x2048x11008, .f32⟩
  | .hbm, ⟨38, _⟩ => ⟨S_, .f32⟩
  | .hbm, ⟨39, _⟩ => ⟨S2x2048x11008, .f32⟩
  | .hbm, ⟨40, _⟩ => ⟨S2x2048x11008, .f32⟩
  | .hbm, ⟨41, _⟩ => ⟨S_, .f32⟩
  | .hbm, ⟨42, _⟩ => ⟨S2x2048x11008, .f32⟩
  | .hbm, ⟨43, _⟩ => ⟨S2x2048x11008, .f32⟩
  | .hbm, ⟨44, _⟩ => ⟨S2x2048x11008, .f32⟩
  | .hbm, ⟨45, _⟩ => ⟨S2x2048x11008, .f32⟩
  | .hbm, ⟨46, _⟩ => ⟨S2x2048x11008, .f32⟩
  | .hbm, ⟨47, _⟩ => ⟨S2x2048x4096, .f32⟩
  | .hbm, ⟨48, _⟩ => ⟨S2x2048x1, .i1⟩
  | .hbm, ⟨49, _⟩ => ⟨S2x2048x4096, .i1⟩
  | .hbm, ⟨50, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call2_v0 : Ref sig .tc := ⟨.hbm, 49, rfl⟩
abbrev main_v21 : Ref sig .tc := ⟨.hbm, 50, rfl⟩

abbrev nD : Nat := 1
abbrev τ : Topo := Topo.v7x

variable {F : FTy → Type} [FloatOps F]

class Facts₀ : Prop where
  bcast_S_S2x2048 : S_.BroadcastsInDim S2x2048 (![] : Fin 0 → Fin S2x2048.rank)
  slices_S2x2048_S2x2047_0_0 : S2x2048.Slices ![0, 0] S2x2047
  bcast_S_S2x2047 : S_.BroadcastsInDim S2x2047 (![] : Fin 0 → Fin S2x2047.rank)
  slices_S2x2048_S2x2047_0_1 : S2x2048.Slices ![0, 1] S2x2047
  bcast_S_S1 : S_.BroadcastsInDim S1 (![] : Fin 0 → Fin S1.rank)
  bcast_S_S2x2048x11008 : S_.BroadcastsInDim S2x2048x11008 (![] : Fin 0 → Fin S2x2048x11008.rank)
  bcast_S2x2048_S2x2048x1_0_1 : S2x2048.BroadcastsInDim S2x2048x1 (![0, 1] : Fin 2 → Fin S2x2048x1.rank)
  bcast_S2x2048x1_S2x2048x4096_0_1_2 : S2x2048x1.BroadcastsInDim S2x2048x4096 (![0, 1, 2] : Fin 3 → Fin S2x2048x4096.rank)
  scatter_S2x2048_S1_S2x2047_01_n_1_0_wf : ScatterDims.WF S2x2048 S1 S2x2047 [0, 1] [] [1] 0
  dot_S2x2048x4096_S4096x11008_S2x2048x11008_2_0_01_1_n_n_wf : DotDims.WF S2x2048x4096 S4096x11008 S2x2048x11008 [2] [0] [0, 1] [1] [] []
  dot_S2x2048x11008_S11008x4096_S2x2048x4096_2_0_01_1_n_n_wf : DotDims.WF S2x2048x11008 S11008x4096 S2x2048x4096 [2] [0] [0, 1] [1] [] []

variable [Facts₀]

def scatter_S2x2048_S1_S2x2047_01_n_1_0 : ScatterDims S2x2048 S1 S2x2047 where
  updateWindowDims := [0, 1]
  insertedWindowDims := []
  scatterDimsToOperandDims := [1]
  indexVectorDim := 0
  wf := scatter_S2x2048_S1_S2x2047_01_n_1_0_wf
def dot_S2x2048x4096_S4096x11008_S2x2048x11008_2_0_01_1_n_n : DotDims S2x2048x4096 S4096x11008 S2x2048x11008 where
  lhsContracting := [2]
  rhsContracting := [0]
  lhsNonContracting := [0, 1]
  rhsNonContracting := [1]
  lhsBatch := []
  rhsBatch := []
  wf := dot_S2x2048x4096_S4096x11008_S2x2048x11008_2_0_01_1_n_n_wf
def dot_S2x2048x11008_S11008x4096_S2x2048x4096_2_0_01_1_n_n : DotDims S2x2048x11008 S11008x4096 S2x2048x4096 where
  lhsContracting := [2]
  rhsContracting := [0]
  lhsNonContracting := [0, 1]
  rhsNonContracting := [1]
  lhsBatch := []
  rhsBatch := []
  wf := dot_S2x2048x11008_S11008x4096_S2x2048x4096_2_0_01_1_n_n_wf

class Facts : Prop extends Facts₀ where

variable [Facts]
-- ==== Proof.CaseValue.lean ====
/-
  What one grid step leaves in the output block.

  The kernel walks a grid of 8 row blocks × 86 column blocks of the intermediate features.  At every step it adds to the
  output block (512 tokens × 4096 features) the two experts' contributions from the current 128 intermediate features:
  first the vision expert's, then the language expert's — two stores of the whole block, the second reading back the first.
  At the first of the 86 steps of a row block the output block is zeroed before that (a third store of the whole block,
  ahead of the other two).  So whatever the step number, the block ends at `step` of the blocks read and of the
  accumulator it started from — the zero block at a first step, the previous step's result otherwise.
-/
import proofs.«137866_j65927747994049_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValue

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- A load of the whole block after a list of stores whose LAST one wrote the whole block reads that store's value. -/
theorem readCov_cons_whole {sig : RefSig} {κ : Kind} {sp : Space} {S : Shape} {e : EltTy}
    (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- One grid step on the accumulator block `acc`: the vision expert's masked activations (from the token block `x0`, the
    mask column `x1`, the gate / up blocks `x2`, `x3`) times the down block `x4` are added, then the language expert's
    (gate / up `x5`, `x6`, down `x7`). -/
def step (x0 : Vec F S512x4096 .bf16) (x1 : Vec F S512x1 .f32) (x2 : Vec F S4096x128 .bf16) (x3 : Vec F S4096x128 .bf16) (x4 : Vec F S128x4096 .bf16) (x5 : Vec F S4096x128 .bf16) (x6 : Vec F S4096x128 .bf16) (x7 : Vec F S128x4096 .bf16) (acc : Vec F S512x4096 .f32) : Vec F S512x4096 .f32 :=
  k0_pay2 (k0_pay7 x0 x1 x5 x6) (k0_pay1 (k0_pay6 x0 x1 x2 x3) (k0_pay8 acc) x4) x7

/-- A later step of a row block: the block held \`xo8\` and ends at \`step … xo8\`. -/
theorem out_B (c : Dev nD) (i : grid0.Coords) (arg2 : Memref sig .tc .vmem S512x4096 .bf16) (harg2 : arg2.IsWhole) (arg3 : Memref sig .tc .vmem S512x1 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S512x4096 .f32) (harg10 : arg10.IsWhole) (hc0 : ¬cond0_0 i) (x0 : Vec F S512x4096 .bf16) (x1 : Vec F S512x1 .f32) (x2 : Vec F S4096x128 .bf16) (x3 : Vec F S4096x128 .bf16) (x4 : Vec F S128x4096 .bf16) (x5 : Vec F S4096x128 .bf16) (x6 : Vec F S4096x128 .bf16) (x7 : Vec F S128x4096 .bf16) (xo8 : Vec F S512x4096 .f32) :
    out0_B_8 c i arg2 harg2 arg3 harg3 arg4 harg4 arg5 harg5 arg6 harg6 arg7 harg7 arg8 harg8 arg9 harg9 arg10 harg10 hc0 x0 x1 x2 x3 x4 x5 x6 x7 xo8 = step x0 x1 x2 x3 x4 x5 x6 x7 xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 x6 x7 xo8)]
  unfold kernelRun0_B
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread,
    harg7.read_unread, harg8.read_unread, harg9.read_unread, harg10.read_unread, View.ld_unit_zero (S := S512x4096) hz,
    View.ld_unit_zero (S := S512x1) hz, View.ld_unit_zero (S := S4096x128) hz, View.ld_unit_zero (S := S128x4096) hz]
  rfl

/-- The first step of a row block: the block is zeroed first, and ends at \`step\` of the zero block. -/
theorem out_A (c : Dev nD) (i : grid0.Coords) (arg2 : Memref sig .tc .vmem S512x4096 .bf16) (harg2 : arg2.IsWhole) (arg3 : Memref sig .tc .vmem S512x1 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S128x4096 .bf16) (harg9 : arg9.IsWhole) (arg10 : Memref sig .tc .vmem S512x4096 .f32) (harg10 : arg10.IsWhole) (hc0 : cond0_0 i) (x0 : Vec F S512x4096 .bf16) (x1 : Vec F S512x1 .f32) (x2 : Vec F S4096x128 .bf16) (x3 : Vec F S4096x128 .bf16) (x4 : Vec F S128x4096 .bf16) (x5 : Vec F S4096x128 .bf16) (x6 : Vec F S4096x128 .bf16) (x7 : Vec F S128x4096 .bf16) :
    out0_A_8 c i arg2 harg2 arg3 harg3 arg4 harg4 arg5 harg5 arg6 harg6 arg7 harg7 arg8 harg8 arg9 harg9 arg10 harg10 hc0 x0 x1 x2 x3 x4 x5 x6 x7 = step x0 x1 x2 x3 x4 x5 x6 x7 (k0_pay3 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S512x4096) hz, readCov_cons_whole (S := S512x4096) _ hz, View.readCov_unit_zero (S := S512x4096) _ hz]
  simp only [View.readAt_eq_ld, harg2.read_unread, harg3.read_unread, harg4.read_unread, harg5.read_unread, harg6.read_unread,
    harg7.read_unread, harg8.read_unread, harg9.read_unread, View.ld_unit_zero (S := S512x4096) hz,
    View.ld_unit_zero (S := S512x1) hz, View.ld_unit_zero (S := S4096x128) hz, View.ld_unit_zero (S := S128x4096) hz]
  rfl

end Cert.KernelIdeal.CaseValue

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«137866_j65927747994049_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«137866_j65927747994049_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.StepValue.lean ====
/-
  One grid step, read entry by entry over the extended reals.

  The step adds to the accumulator block, at token `p` and output feature `j`, two finite sums over the 128 intermediate
  features of the current column block: the vision expert's gated activation of token `p` times the token's mask value
  `μ` times the down-projection entry, and the language expert's times `1 − μ`.  A gated activation is  g · σ(g) · u  with
  g, u the token's projections (sums over its 4096 features) and σ the logistic function.  Changing the number format
  of a value does nothing to an extended real, and a matrix product into a zero accumulator is the plain sum of products.
-/
import proofs.«137866_j65927747994049_2_alg».proof.Proof.CaseValue
import proofs.«137866_j65927747994049_2_alg».proof.Proof.LibBlockDot
import Idealize.ShloMosaic.PureOps.IdealRules

noncomputable section

open scoped BigOperators

namespace Cert.KernelIdeal.StepValue

open Idealize.ShloMosaic Idealize.ShloMosaic.ValueIdx
open Cert.KernelIdeal Cert.KernelIdeal.Gen Cert.KernelIdeal.CaseValue Cert.BlockDot

/-- The gated activation of token `p` of a block of 512 tokens at intermediate feature `k` of a block of 128:
    g · σ(g) · u  with  g = ∑ₕ x[p,h] · wg[h,k],  u = ∑ₕ x[p,h] · wu[h,k]. -/
def gact (x : S512x4096.Idx → EReal) (wg wu : S4096x128.Idx → EReal) (p : Fin 512) (k : Fin 128) : EReal :=
  ((∑ h : Fin 4096, x (ix2 p h) * wg (ix2 h k)) * Ideal.logistic (∑ h : Fin 4096, x (ix2 p h) * wg (ix2 h k)))
    * (∑ h : Fin 4096, x (ix2 p h) * wu (ix2 h k))

/-- The word `0x3F800000` is the number one. -/
theorem one_word : Ideal.ofBits .f32 0x3F800000#32 = 1 := IdealRules.sign_bit.ideal_onePat .f32

/-- A projection of the token block: the product into the zero accumulator is the sum over the 4096 features. -/
theorem proj_apply (x : Vec Ideal S512x4096 .bf16) (w : Vec Ideal S4096x128 .bf16) (p : Fin 512) (k : Fin 128) :
    (matmul dot_S512x4096_S4096x128_S512x128_1_0_0_1_n_n none
        (shapeCast S512x4096 x shapeCasts_S512x4096_S512x4096 : FVec Ideal S512x4096 .bf16)
        (shapeCast S4096x128 w shapeCasts_S4096x128_S4096x128 : FVec Ideal S4096x128 .bf16)
        (constant S512x128 .f32 0x00000000#32) : FVec Ideal S512x128 .f32) (ix2 p k)
      = ∑ h : Fin 4096, (x : FVec Ideal S512x4096 .bf16) (ix2 p h) * (w : FVec Ideal S4096x128 .bf16) (ix2 h k) := by
  rw [shapeCast_self, shapeCast_self]
  exact kdot_apply (R := 512) (K := 4096) (N := 128) none (x : FVec Ideal S512x4096 .bf16) (w : FVec Ideal S4096x128 .bf16) p k

/-- The projection back: the product of a block of activations with a down-projection block, into the zero accumulator,
    is the sum over the block's 128 intermediate features. -/
theorem back_apply (a : FVec Ideal S512x128 .bf16) (w : Vec Ideal S128x4096 .bf16) (p : Fin 512) (j : Fin 4096) :
    (matmul dot_S512x128_S128x4096_S512x4096_1_0_0_1_n_n none a
        (shapeCast S128x4096 w shapeCasts_S128x4096_S128x4096 : FVec Ideal S128x4096 .bf16)
        (constant S512x4096 .f32 0x00000000#32) : FVec Ideal S512x4096 .f32) (ix2 p j)
      = ∑ k : Fin 128, a (ix2 p k) * (w : FVec Ideal S128x4096 .bf16) (ix2 k j) := by
  rw [shapeCast_self]
  exact kdot_apply (R := 512) (K := 128) (N := 4096) none a (w : FVec Ideal S128x4096 .bf16) p j

/-- A column of per-token values spread over the 128 columns of a block, read at `(p, k)`: the token's value. -/
theorem column_apply (v : FVec Ideal S512x1 .f32) (p : Fin 512) (k : Fin 128) :
    broadcastTo S512x128 v broadcasts_S512x1_S512x128 (ix2 p k) = v (ix2 p 0) :=
  broadcastTo_apply v broadcasts_S512x1_S512x128 (ix2 p k) (ix2 p 0) (fun a => match a with
    | ⟨0, _⟩ => by show p.val = if (512 : Nat) = 1 then 0 else p.val; rw [if_neg (by decide)]
    | ⟨1, _⟩ => by show (0 : Nat) = if (1 : Nat) = 1 then 0 else k.val; rw [if_pos rfl])

/-- The gated combination of two projections and a per-token factor, entry by entry. -/
theorem gated_apply (g u : FVec Ideal S512x128 .f32) (v : FVec Ideal S512x1 .f32) (p : Fin 512) (k : Fin 128) :
    (truncf .bf16 (mulf (mulf (mulf g (logistic g)) u) (broadcastTo S512x128 v broadcasts_S512x1_S512x128)) bitsLt_bf16_f32
        : FVec Ideal S512x128 .bf16) (ix2 p k)
      = ((g (ix2 p k) * Ideal.logistic (g (ix2 p k))) * u (ix2 p k)) * v (ix2 p 0) := by
  show ((g (ix2 p k) * Ideal.logistic (g (ix2 p k))) * u (ix2 p k)) * broadcastTo S512x128 v broadcasts_S512x1_S512x128 (ix2 p k) = _
  rw [column_apply]

/-- The vision expert's masked activations of the block, at `(p, k)`. -/
theorem vis_act_apply (x0 : Vec Ideal S512x4096 .bf16) (x1 : Vec Ideal S512x1 .f32) (x2 x3 : Vec Ideal S4096x128 .bf16)
    (p : Fin 512) (k : Fin 128) :
    (k0_pay6 (F := Ideal) x0 x1 x2 x3 : FVec Ideal S512x128 .bf16) (ix2 p k)
      = gact x0 x2 x3 p k * (x1 : FVec Ideal S512x1 .f32) (ix2 p 0) := by
  unfold k0_pay6 k0_pay5 k0_pay4
  refine (gated_apply _ _ _ p k).trans ?_
  rw [proj_apply, proj_apply, shapeCast_self]
  rfl

/-- The language expert's masked activations of the block, at `(p, k)`: the mask value is replaced by one minus it. -/
theorem lang_act_apply (x0 : Vec Ideal S512x4096 .bf16) (x1 : Vec Ideal S512x1 .f32) (x5 x6 : Vec Ideal S4096x128 .bf16)
    (p : Fin 512) (k : Fin 128) :
    (k0_pay7 (F := Ideal) x0 x1 x5 x6 : FVec Ideal S512x128 .bf16) (ix2 p k)
      = gact x0 x5 x6 p k * (1 - (x1 : FVec Ideal S512x1 .f32) (ix2 p 0)) := by
  unfold k0_pay7 k0_pay5 k0_pay4
  refine (gated_apply _ _ _ p k).trans ?_
  rw [proj_apply, proj_apply]
  show _ * (Ideal.ofBits .f32 0x3F800000#32 - (shapeCast S512x1 x1 shapeCasts_S512x1_S512x1 : FVec Ideal S512x1 .f32) (ix2 p 0)) = _
  rw [one_word, shapeCast_self]
  rfl

/-- Adding a projection back to an accumulator, entry by entry. -/
theorem add_back_apply (acc : FVec Ideal S512x4096 .f32) (a : FVec Ideal S512x128 .bf16) (w : Vec Ideal S128x4096 .bf16)
    (p : Fin 512) (j : Fin 4096) :
    (addf acc (matmul dot_S512x128_S128x4096_S512x4096_1_0_0_1_n_n none a
        (shapeCast S128x4096 w shapeCasts_S128x4096_S128x4096 : FVec Ideal S128x4096 .bf16)
        (constant S512x4096 .f32 0x00000000#32)) : FVec Ideal S512x4096 .f32) (ix2 p j)
      = acc (ix2 p j) + ∑ k : Fin 128, a (ix2 p k) * (w : FVec Ideal S128x4096 .bf16) (ix2 k j) := by
  show acc (ix2 p j) + _ = _
  rw [back_apply]

/-- THE STEP at `(p, j)`: the accumulator's entry, plus the vision expert's sum over the block's 128 intermediate
    features, plus the language expert's. -/
theorem step_apply (x0 : Vec Ideal S512x4096 .bf16) (x1 : Vec Ideal S512x1 .f32) (x2 x3 : Vec Ideal S4096x128 .bf16)
    (x4 : Vec Ideal S128x4096 .bf16) (x5 x6 : Vec Ideal S4096x128 .bf16) (x7 : Vec Ideal S128x4096 .bf16)
    (acc : Vec Ideal S512x4096 .f32) (p : Fin 512) (j : Fin 4096) :
    (step (F := Ideal) x0 x1 x2 x3 x4 x5 x6 x7 acc : FVec Ideal S512x4096 .f32) (ix2 p j)
      = ((acc : FVec Ideal S512x4096 .f32) (ix2 p j)
            + ∑ k : Fin 128, (gact x0 x2 x3 p k * (x1 : FVec Ideal S512x1 .f32) (ix2 p 0)) * (x4 : FVec Ideal S128x4096 .bf16) (ix2 k j))
          + ∑ k : Fin 128, (gact x0 x5 x6 p k * (1 - (x1 : FVec Ideal S512x1 .f32) (ix2 p 0))) * (x7 : FVec Ideal S128x4096 .bf16) (ix2 k j) := by
  unfold step k0_pay2 k0_pay1 k0_pay8
  refine (add_back_apply _ _ _ p j).trans ?_
  rw [shapeCast_self]
  refine congrArg₂ (· + ·) ((add_back_apply _ _ _ p j).trans ?_) (Finset.sum_congr rfl fun k _ => by rw [lang_act_apply])
  rw [shapeCast_self]
  exact congrArg (_ + ·) (Finset.sum_congr rfl fun k _ => by rw [vis_act_apply])

end Cert.KernelIdeal.StepValue

end
-- ==== Proof.Spec.lean ====
/-
  The mathematics both programs compute, stated without either program.

  A token is a row of 4096 features; there are 2 × 2048 of them.  An "expert" is a gated feed-forward layer with three
  weight matrices: the token is projected onto 11008 intermediate features twice (gate `Wg`, up `Wu`), the two
  projections are combined as  g · σ(g) · u  with σ the logistic function, and the 11008 values are projected back onto
  4096 features by `Wd`.  Two experts are given; a one-bit mask per token says which expert's output the token gets.
  Everything is over the extended reals, and sums are finite sums there.
-/
import Idealize.ShloMosaic.PureOps.Ideal
import Idealize.ShloMosaic.Lib.ValueIdx

noncomputable section

namespace Cert.Spec

open Idealize.ShloMosaic Idealize.ShloMosaic.ValueIdx

/-- Tokens: 2 sequences of 2048 tokens of 4096 features. -/
abbrev ST : Shape := ⟨3, ![2, 2048, 4096]⟩
/-- One bit per token. -/
abbrev SM : Shape := ⟨2, ![2, 2048]⟩
/-- A projection onto the 11008 intermediate features. -/
abbrev SU : Shape := ⟨2, ![4096, 11008]⟩
/-- The projection back. -/
abbrev SD : Shape := ⟨2, ![11008, 4096]⟩

/-- Token `(b, s)` projected onto intermediate feature `i` by `W`:  ∑ₕ x[b,s,h] · W[h,i]. -/
def proj (x : ST.Idx → EReal) (W : SU.Idx → EReal) (b : Fin 2) (s : Fin 2048) (i : Fin 11008) : EReal :=
  ∑ h : Fin 4096, x (ix3 b s h) * W (ix2 h i)

/-- The gated activation of token `(b, s)` at intermediate feature `i`:  g · σ(g) · u  with g, u the two projections. -/
def act (x : ST.Idx → EReal) (Wg Wu : SU.Idx → EReal) (b : Fin 2) (s : Fin 2048) (i : Fin 11008) : EReal :=
  (proj x Wg b s i * Ideal.logistic (proj x Wg b s i)) * proj x Wu b s i

/-- One expert's output for token `(b, s)` at feature `j`:  ∑ᵢ act[b,s,i] · Wd[i,j]. -/
def expert (x : ST.Idx → EReal) (Wg Wu : SU.Idx → EReal) (Wd : SD.Idx → EReal) (b : Fin 2) (s : Fin 2048) (j : Fin 4096) : EReal :=
  ∑ i : Fin 11008, act x Wg Wu b s i * Wd (ix2 i j)

/-- The layer: a token whose mask bit is set gets the second ("vision") expert's output, any other token the first
    ("language") expert's. -/
def layer (x : ST.Idx → EReal) (mk : SM.Idx → BitVec 1) (lg lu : SU.Idx → EReal) (ld : SD.Idx → EReal)
    (vg vu : SU.Idx → EReal) (vd : SD.Idx → EReal) : ST.Idx → EReal := fun i =>
  if mk (ix2 (i 0) (i 1)) = 1#1 then expert x vg vu vd (i 0) (i 1) (i 2) else expert x lg lu ld (i 0) (i 1) (i 2)

end Cert.Spec

end
-- ==== Proof.Tiles.lean ====
/-
  The same layer computed tile by tile, and why that is the same number.

  Tokens are flattened to 4096 rows; the mask is a column of 4096 values, each 0 or 1.  The 11008 intermediate features
  are cut into 86 blocks of 128.  For an output entry (row `r`, feature `j`) block `b` contributes two finite sums over its
  128 features: the vision expert's  act · μ · down  and the language expert's  act · (1 − μ) · down,  with μ the row's
  mask value.  An accumulator starts at zero and takes in the blocks in order, each as  (acc + vision) + language.
  Over the extended reals addition is commutative and associative whatever the summands, so after the last block the
  accumulator holds (all vision blocks) + (all language blocks); the blocks of 128 add up to the sum over all 11008
  features; and with μ = 1 every language term carries the factor 1 − 1 = 0 and every vision term the factor 1, with
  μ = 0 the other way round — so the entry is the selected expert's output.  No entry need be finite for any of this.
-/
import proofs.«137866_j65927747994049_2_alg».proof.Proof.Spec

noncomputable section

open scoped BigOperators

namespace Cert.Tiles

open Idealize.ShloMosaic Idealize.ShloMosaic.ValueIdx Cert.Spec

/-- Flattened tokens, and the output: 4096 rows of 4096 features. -/
abbrev SA : Shape := ⟨2, ![4096, 4096]⟩
/-- The mask as a column. -/
abbrev SC : Shape := ⟨2, ![4096, 1]⟩

/-- Feature `k` of block `b` among the 11008 intermediate features. -/
def col (b : Fin 86) (k : Fin 128) : Fin 11008 := ⟨k.val + 128 * b.val, by have := k.isLt; have := b.isLt; omega⟩

/-- Row `p` of the row block that grid step `n` works on (steps run row block by row block, 86 steps each). -/
def rowAt (n : ℕ) (p : Fin 512) : Fin 4096 :=
  ⟨512 * (n / 86 % 8) + p.val, by have := p.isLt; have := Nat.mod_lt (n / 86) (by decide : 0 < 8); omega⟩

/-- The column block that grid step `n` works on. -/
def blkAt (n : ℕ) : Fin 86 := ⟨n % 86, Nat.mod_lt _ (by decide)⟩

/-- The gated activation of row `r` at intermediate feature `i`:  g · σ(g) · u. -/
def gactG (X : SA.Idx → EReal) (Wg Wu : SU.Idx → EReal) (r : Fin 4096) (i : Fin 11008) : EReal :=
  ((∑ h : Fin 4096, X (ix2 r h) * Wg (ix2 h i)) * Ideal.logistic (∑ h : Fin 4096, X (ix2 r h) * Wg (ix2 h i)))
    * (∑ h : Fin 4096, X (ix2 r h) * Wu (ix2 h i))

/-- Block `b`'s contribution to entry `(r, j)` from one expert, its activations weighted by the row's factor `μ`. -/
def blk (X : SA.Idx → EReal) (Wg Wu : SU.Idx → EReal) (Wd : SD.Idx → EReal) (μ : EReal) (r j : Fin 4096) (b : Fin 86) : EReal :=
  ∑ k : Fin 128, (gactG X Wg Wu r (col b k) * μ) * Wd (ix2 (col b k) j)

/-- The tiled layer: all vision blocks weighted by the mask value, plus all language blocks weighted by one minus it. -/
def tiled (X : SA.Idx → EReal) (Mc : SC.Idx → EReal) (VG VU : SU.Idx → EReal) (VD : SD.Idx → EReal)
    (LG LU : SU.Idx → EReal) (LD : SD.Idx → EReal) : SA.Idx → EReal := fun i =>
  (∑ b : Fin 86, blk X VG VU VD (Mc (ix2 (i 0) 0)) (i 0) (i 1) b)
    + ∑ b : Fin 86, blk X LG LU LD (1 - Mc (ix2 (i 0) 0)) (i 0) (i 1) b

/-- The gated activation written out (the one place its definition is opened by name). -/
theorem gactG_eq (X : SA.Idx → EReal) (Wg Wu : SU.Idx → EReal) (r : Fin 4096) (i : Fin 11008) :
    gactG X Wg Wu r i = ((∑ h : Fin 4096, X (ix2 r h) * Wg (ix2 h i)) * Ideal.logistic (∑ h : Fin 4096, X (ix2 r h) * Wg (ix2 h i)))
      * (∑ h : Fin 4096, X (ix2 r h) * Wu (ix2 h i)) := by
  unfold gactG
  rfl

/-- A block's contribution written out. -/
theorem blk_eq (X : SA.Idx → EReal) (Wg Wu : SU.Idx → EReal) (Wd : SD.Idx → EReal) (μ : EReal) (r j : Fin 4096) (b : Fin 86) :
    blk X Wg Wu Wd μ r j b = ∑ k : Fin 128, (gactG X Wg Wu r (col b k) * μ) * Wd (ix2 (col b k) j) := by
  unfold blk
  rfl

/-- The tiled layer written out. -/
theorem tiled_eq_sums (X : SA.Idx → EReal) (Mc : SC.Idx → EReal) (VG VU : SU.Idx → EReal) (VD : SD.Idx → EReal)
    (LG LU : SU.Idx → EReal) (LD : SD.Idx → EReal) (i : SA.Idx) :
    tiled X Mc VG VU VD LG LU LD i = (∑ b : Fin 86, blk X VG VU VD (Mc (ix2 (i 0) 0)) (i 0) (i 1) b)
      + ∑ b : Fin 86, blk X LG LU LD (1 - Mc (ix2 (i 0) 0)) (i 0) (i 1) b := by
  unfold tiled
  rfl

/-! ## Partial sums over the first blocks -/

/-- The blocks `0 … q` of a family over the 86 blocks, summed. -/
def upTo (f : Fin 86 → EReal) (q : ℕ) : EReal := ∑ b ∈ Finset.range (q + 1), if h : b < 86 then f ⟨b, h⟩ else 0

theorem upTo_zero (f : Fin 86 → EReal) : upTo f 0 = f ⟨0, by decide⟩ := by
  unfold upTo
  rw [Finset.sum_range_one, dif_pos (by decide : 0 < 86)]

theorem upTo_succ (f : Fin 86 → EReal) (q : ℕ) (h : q + 1 < 86) : upTo f (q + 1) = upTo f q + f ⟨q + 1, h⟩ := by
  unfold upTo
  rw [Finset.sum_range_succ, dif_pos h]

theorem upTo_last (f : Fin 86 → EReal) : upTo f 85 = ∑ b : Fin 86, f b := by
  unfold upTo
  rw [Finset.sum_range (fun b => if h : b < 86 then f ⟨b, h⟩ else 0)]
  exact Finset.sum_congr rfl fun b _ => by rw [dif_pos b.isLt]

/-- The accumulator's first step:  (0 + vision) + language. -/
theorem first_step (A B : Fin 86 → EReal) : ((0 : EReal) + A ⟨0, by decide⟩) + B ⟨0, by decide⟩ = upTo A 0 + upTo B 0 := by
  rw [upTo_zero, upTo_zero, zero_add]

/-- A later step:  (acc + vision) + language  extends both partial sums. -/
theorem next_step (A B : Fin 86 → EReal) (q : ℕ) (h : q + 1 < 86) :
    ((upTo A q + upTo B q) + A ⟨q + 1, h⟩) + B ⟨q + 1, h⟩ = upTo A (q + 1) + upTo B (q + 1) := by
  rw [upTo_succ A q h, upTo_succ B q h, add_assoc, add_add_add_comm]

/-! ## The 86 blocks of 128 are the 11008 features -/

theorem sum_blocks (f : Fin 11008 → EReal) : ∑ i : Fin 11008, f i = ∑ b : Fin 86, ∑ k : Fin 128, f (col b k) := by
  rw [← Fintype.sum_prod_type' (fun b k => f (col b k))]
  exact (Fintype.sum_equiv (finProdFinEquiv (m := 86) (n := 128)) (fun x => f (col x.1 x.2)) f (fun x => rfl)).symm

end Cert.Tiles

end
-- ==== Proof.Blocks.lean ====
/-
  The kernel's blocks are pieces of whole arrays, and the output block accumulates the tiled layer.

  At grid step `n` (row block `n / 86`, column block `n % 86`) the token block and the mask block are rows
  `512 · (n / 86) …` of the flattened tokens and of the mask column; a gate or up block is columns `128 · (n % 86) …` of its
  weight matrix, a down block the same rows of its matrix.  So one step's two sums are the two experts' contributions of
  block `n % 86` to the rows of row block `n / 86`, and by induction over the steps the output block holds, after step
  `n`, the vision blocks `0 … n % 86` plus the language blocks `0 … n % 86` for those rows.
-/
import proofs.«137866_j65927747994049_2_alg».proof.Proof.StepValue
import proofs.«137866_j65927747994049_2_alg».proof.Proof.Tiles
import Idealize.ShloMosaic.Lib.Pipeline.Value

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.CaseValue Cert.KernelIdeal.StepValue Cert.Tiles

variable (m : (ℓ : Loc nD τ sig) → Buf (Elt Ideal) ℓ)

/-! ## Where each window's block sits, over the whole grid -/

theorem idx0 : ∀ t : Fin cfg0.N, win0_0.index t (0 : Fin 2) = t.val / 86 ∧ win0_0.index t (1 : Fin 2) = 0 :=
  (by decide +kernel : ∀ t : Fin grid0.N, win0_0.index t (0 : Fin 2) = t.val / 86 ∧ win0_0.index t (1 : Fin 2) = 0)
theorem idx1 : ∀ t : Fin cfg0.N, win0_1.index t (0 : Fin 2) = t.val / 86 ∧ win0_1.index t (1 : Fin 2) = 0 :=
  (by decide +kernel : ∀ t : Fin grid0.N, win0_1.index t (0 : Fin 2) = t.val / 86 ∧ win0_1.index t (1 : Fin 2) = 0)
theorem idx2 : ∀ t : Fin cfg0.N, win0_2.index t (0 : Fin 2) = 0 ∧ win0_2.index t (1 : Fin 2) = t.val % 86 :=
  (by decide +kernel : ∀ t : Fin grid0.N, win0_2.index t (0 : Fin 2) = 0 ∧ win0_2.index t (1 : Fin 2) = t.val % 86)
theorem idx3 : ∀ t : Fin cfg0.N, win0_3.index t (0 : Fin 2) = 0 ∧ win0_3.index t (1 : Fin 2) = t.val % 86 :=
  (by decide +kernel : ∀ t : Fin grid0.N, win0_3.index t (0 : Fin 2) = 0 ∧ win0_3.index t (1 : Fin 2) = t.val % 86)
theorem idx4 : ∀ t : Fin cfg0.N, win0_4.index t (0 : Fin 2) = t.val % 86 ∧ win0_4.index t (1 : Fin 2) = 0 :=
  (by decide +kernel : ∀ t : Fin grid0.N, win0_4.index t (0 : Fin 2) = t.val % 86 ∧ win0_4.index t (1 : Fin 2) = 0)
theorem idx5 : ∀ t : Fin cfg0.N, win0_5.index t (0 : Fin 2) = 0 ∧ win0_5.index t (1 : Fin 2) = t.val % 86 :=
  (by decide +kernel : ∀ t : Fin grid0.N, win0_5.index t (0 : Fin 2) = 0 ∧ win0_5.index t (1 : Fin 2) = t.val % 86)
theorem idx6 : ∀ t : Fin cfg0.N, win0_6.index t (0 : Fin 2) = 0 ∧ win0_6.index t (1 : Fin 2) = t.val % 86 :=
  (by decide +kernel : ∀ t : Fin grid0.N, win0_6.index t (0 : Fin 2) = 0 ∧ win0_6.index t (1 : Fin 2) = t.val % 86)
theorem idx7 : ∀ t : Fin cfg0.N, win0_7.index t (0 : Fin 2) = t.val % 86 ∧ win0_7.index t (1 : Fin 2) = 0 :=
  (by decide +kernel : ∀ t : Fin grid0.N, win0_7.index t (0 : Fin 2) = t.val % 86 ∧ win0_7.index t (1 : Fin 2) = 0)
theorem idx8 : ∀ t : Fin cfg0.N, win0_8.index t (0 : Fin 2) = t.val / 86 ∧ win0_8.index t (1 : Fin 2) = 0 :=
  (by decide +kernel : ∀ t : Fin grid0.N, win0_8.index t (0 : Fin 2) = t.val / 86 ∧ win0_8.index t (1 : Fin 2) = 0)

/-! ## The blocks read off the arrays -/

/-- The token block at step `n`: rows `rowAt n ·` of the flattened tokens. -/
theorem tok_block (c : Dev nD) (n : ℕ) (hn : n < cfg0.N) (p : Fin 512) (h : Fin 4096) :
    (iblk m c 0 ⟨n, hn⟩ : FVec Ideal S512x4096 .bf16) (ix2 p h) = (V m c main_v11 : FVec Ideal S4096x4096 .bf16) (ix2 (rowAt n p) h) := by
  unfold iblk
  rw [View.read_apply]
  show V m c main_v11 _ = V m c main_v11 _
  refine congrArg (V m c main_v11) (funext fun a => Fin.ext ?_)
  match a with
  | ⟨0, _⟩ =>
    show win0_0.index ⟨n, hn⟩ 0 * 512 + 1 * p.val = 512 * (n / 86 % 8) + p.val
    have hN : n < 688 := lt_of_lt_of_eq hn (show cfg0.N = 688 from N_0)
    rw [(idx0 ⟨n, hn⟩).1]; show n / 86 * 512 + 1 * p.val = _; omega
  | ⟨1, _⟩ =>
    show win0_0.index ⟨n, hn⟩ 1 * 4096 + 1 * h.val = h.val
    rw [(idx0 ⟨n, hn⟩).2]; omega

/-- The mask block at step `n`: the same rows of the mask column. -/
theorem mask_block (c : Dev nD) (n : ℕ) (hn : n < cfg0.N) (p : Fin 512) :
    (iblk m c 1 ⟨n, hn⟩ : FVec Ideal S512x1 .f32) (ix2 p 0) = (V m c main_v13 : FVec Ideal S4096x1 .f32) (ix2 (rowAt n p) 0) := by
  unfold iblk
  rw [View.read_apply]
  show V m c main_v13 _ = V m c main_v13 _
  refine congrArg (V m c main_v13) (funext fun a => Fin.ext ?_)
  match a with
  | ⟨0, _⟩ =>
    show win0_1.index ⟨n, hn⟩ 0 * 512 + 1 * p.val = 512 * (n / 86 % 8) + p.val
    have hN : n < 688 := lt_of_lt_of_eq hn (show cfg0.N = 688 from N_0)
    rw [(idx1 ⟨n, hn⟩).1]; show n / 86 * 512 + 1 * p.val = _; omega
  | ⟨1, _⟩ =>
    show win0_1.index ⟨n, hn⟩ 1 * 1 + 1 * 0 = 0
    rw [(idx1 ⟨n, hn⟩).2]

theorem vgate_block (c : Dev nD) (n : ℕ) (hn : n < cfg0.N) (h : Fin 4096) (k : Fin 128) :
    (iblk m c 2 ⟨n, hn⟩ : FVec Ideal S4096x128 .bf16) (ix2 h k) = (V m c main_v14 : FVec Ideal S4096x11008 .bf16) (ix2 h (col (blkAt n) k)) := by
  unfold iblk
  rw [View.read_apply]
  show V m c main_v14 _ = V m c main_v14 _
  refine congrArg (V m c main_v14) (funext fun a => Fin.ext ?_)
  match a with
  | ⟨0, _⟩ =>
    show win0_2.index ⟨n, hn⟩ 0 * 4096 + 1 * h.val = h.val
    rw [(idx2 ⟨n, hn⟩).1]; omega
  | ⟨1, _⟩ =>
    show win0_2.index ⟨n, hn⟩ 1 * 128 + 1 * k.val = k.val + 128 * (n % 86)
    rw [(idx2 ⟨n, hn⟩).2]; show n % 86 * 128 + 1 * k.val = _; omega

theorem vup_block (c : Dev nD) (n : ℕ) (hn : n < cfg0.N) (h : Fin 4096) (k : Fin 128) :
    (iblk m c 3 ⟨n, hn⟩ : FVec Ideal S4096x128 .bf16) (ix2 h k) = (V m c main_v15 : FVec Ideal S4096x11008 .bf16) (ix2 h (col (blkAt n) k)) := by
  unfold iblk
  rw [View.read_apply]
  show V m c main_v15 _ = V m c main_v15 _
  refine congrArg (V m c main_v15) (funext fun a => Fin.ext ?_)
  match a with
  | ⟨0, _⟩ =>
    show win0_3.index ⟨n, hn⟩ 0 * 4096 + 1 * h.val = h.val
    rw [(idx3 ⟨n, hn⟩).1]; omega
  | ⟨1, _⟩ =>
    show win0_3.index ⟨n, hn⟩ 1 * 128 + 1 * k.val = k.val + 128 * (n % 86)
    rw [(idx3 ⟨n, hn⟩).2]; show n % 86 * 128 + 1 * k.val = _; omega

theorem vdown_block (c : Dev nD) (n : ℕ) (hn : n < cfg0.N) (k : Fin 128) (j : Fin 4096) :
    (iblk m c 4 ⟨n, hn⟩ : FVec Ideal S128x4096 .bf16) (ix2 k j) = (V m c main_v16 : FVec Ideal S11008x4096 .bf16) (ix2 (col (blkAt n) k) j) := by
  unfold iblk
  rw [View.read_apply]
  show V m c main_v16 _ = V m c main_v16 _
  refine congrArg (V m c main_v16) (funext fun a => Fin.ext ?_)
  match a with
  | ⟨0, _⟩ =>
    show win0_4.index ⟨n, hn⟩ 0 * 128 + 1 * k.val = k.val + 128 * (n % 86)
    rw [(idx4 ⟨n, hn⟩).1]; show n % 86 * 128 + 1 * k.val = _; omega
  | ⟨1, _⟩ =>
    show win0_4.index ⟨n, hn⟩ 1 * 4096 + 1 * j.val = j.val
    rw [(idx4 ⟨n, hn⟩).2]; omega

theorem lgate_block (c : Dev nD) (n : ℕ) (hn : n < cfg0.N) (h : Fin 4096) (k : Fin 128) :
    (iblk m c 5 ⟨n, hn⟩ : FVec Ideal S4096x128 .bf16) (ix2 h k) = (V m c main_v17 : FVec Ideal S4096x11008 .bf16) (ix2 h (col (blkAt n) k)) := by
  unfold iblk
  rw [View.read_apply]
  show V m c main_v17 _ = V m c main_v17 _
  refine congrArg (V m c main_v17) (funext fun a => Fin.ext ?_)
  match a with
  | ⟨0, _⟩ =>
    show win0_5.index ⟨n, hn⟩ 0 * 4096 + 1 * h.val = h.val
    rw [(idx5 ⟨n, hn⟩).1]; omega
  | ⟨1, _⟩ =>
    show win0_5.index ⟨n, hn⟩ 1 * 128 + 1 * k.val = k.val + 128 * (n % 86)
    rw [(idx5 ⟨n, hn⟩).2]; show n % 86 * 128 + 1 * k.val = _; omega

theorem lup_block (c : Dev nD) (n : ℕ) (hn : n < cfg0.N) (h : Fin 4096) (k : Fin 128) :
    (iblk m c 6 ⟨n, hn⟩ : FVec Ideal S4096x128 .bf16) (ix2 h k) = (V m c main_v18 : FVec Ideal S4096x11008 .bf16) (ix2 h (col (blkAt n) k)) := by
  unfold iblk
  rw [View.read_apply]
  show V m c main_v18 _ = V m c main_v18 _
  refine congrArg (V m c main_v18) (funext fun a => Fin.ext ?_)
  match a with
  | ⟨0, _⟩ =>
    show win0_6.index ⟨n, hn⟩ 0 * 4096 + 1 * h.val = h.val
    rw [(idx6 ⟨n, hn⟩).1]; omega
  | ⟨1, _⟩ =>
    show win0_6.index ⟨n, hn⟩ 1 * 128 + 1 * k.val = k.val + 128 * (n % 86)
    rw [(idx6 ⟨n, hn⟩).2]; show n % 86 * 128 + 1 * k.val = _; omega

theorem ldown_block (c : Dev nD) (n : ℕ) (hn : n < cfg0.N) (k : Fin 128) (j : Fin 4096) :
    (iblk m c 7 ⟨n, hn⟩ : FVec Ideal S128x4096 .bf16) (ix2 k j) = (V m c main_v19 : FVec Ideal S11008x4096 .bf16) (ix2 (col (blkAt n) k) j) := by
  unfold iblk
  rw [View.read_apply]
  show V m c main_v19 _ = V m c main_v19 _
  refine congrArg (V m c main_v19) (funext fun a => Fin.ext ?_)
  match a with
  | ⟨0, _⟩ =>
    show win0_7.index ⟨n, hn⟩ 0 * 128 + 1 * k.val = k.val + 128 * (n % 86)
    rw [(idx7 ⟨n, hn⟩).1]; show n % 86 * 128 + 1 * k.val = _; omega
  | ⟨1, _⟩ =>
    show win0_7.index ⟨n, hn⟩ 1 * 4096 + 1 * j.val = j.val
    rw [(idx7 ⟨n, hn⟩).2]; omega

/-! ## One step's two sums are one block's two contributions -/

/-- The vision expert's sum at step `n`, entry `(p, j)` of the block: block `n % 86`'s contribution to row `rowAt n p`. -/
theorem vis_sum (c : Dev nD) (n : ℕ) (hn : n < cfg0.N) (p : Fin 512) (j : Fin 4096) :
    (∑ k : Fin 128, (gact (iblk m c 0 ⟨n, hn⟩) (iblk m c 2 ⟨n, hn⟩) (iblk m c 3 ⟨n, hn⟩) p k
          * (iblk m c 1 ⟨n, hn⟩ : FVec Ideal S512x1 .f32) (ix2 p 0)) * (iblk m c 4 ⟨n, hn⟩ : FVec Ideal S128x4096 .bf16) (ix2 k j))
      = blk (V m c main_v11) (V m c main_v14) (V m c main_v15) (V m c main_v16)
          ((V m c main_v13 : FVec Ideal S4096x1 .f32) (ix2 (rowAt n p) 0)) (rowAt n p) j (blkAt n) := by
  unfold blk
  refine Finset.sum_congr rfl fun k _ => ?_
  rw [mask_block, vdown_block]
  unfold gact gactG
  simp only [tok_block, vgate_block, vup_block]

/-- The language expert's sum at step `n`. -/
theorem lang_sum (c : Dev nD) (n : ℕ) (hn : n < cfg0.N) (p : Fin 512) (j : Fin 4096) :
    (∑ k : Fin 128, (gact (iblk m c 0 ⟨n, hn⟩) (iblk m c 5 ⟨n, hn⟩) (iblk m c 6 ⟨n, hn⟩) p k
          * (1 - (iblk m c 1 ⟨n, hn⟩ : FVec Ideal S512x1 .f32) (ix2 p 0))) * (iblk m c 7 ⟨n, hn⟩ : FVec Ideal S128x4096 .bf16) (ix2 k j))
      = blk (V m c main_v11) (V m c main_v17) (V m c main_v18) (V m c main_v19)
          (1 - (V m c main_v13 : FVec Ideal S4096x1 .f32) (ix2 (rowAt n p) 0)) (rowAt n p) j (blkAt n) := by
  unfold blk
  refine Finset.sum_congr rfl fun k _ => ?_
  rw [mask_block, ldown_block]
  unfold gact gactG
  simp only [tok_block, lgate_block, lup_block]

/-! ## The accumulation -/

/-- After grid step `n` the output block holds, at `(p, j)`, the vision blocks `0 … n % 86` plus the language blocks
    `0 … n % 86` of row `rowAt n p`. -/
theorem acc_eq (c : Dev nD) : ∀ (n : ℕ) (hn : n < cfg0.N) (p : Fin 512) (j : Fin 4096),
    (outsAt0 m c n hn : FVec Ideal S512x4096 .f32) (ix2 p j)
      = upTo (blk (V m c main_v11) (V m c main_v14) (V m c main_v15) (V m c main_v16)
            ((V m c main_v13 : FVec Ideal S4096x1 .f32) (ix2 (rowAt n p) 0)) (rowAt n p) j) (n % 86)
        + upTo (blk (V m c main_v11) (V m c main_v17) (V m c main_v18) (V m c main_v19)
            (1 - (V m c main_v13 : FVec Ideal S4096x1 .f32) (ix2 (rowAt n p) 0)) (rowAt n p) j) (n % 86) := by
  have first : ∀ (n : ℕ) (hn : n < cfg0.N) (h0 : n % 86 = 0) (p : Fin 512) (j : Fin 4096),
      (outsAt0 m c n hn : FVec Ideal S512x4096 .f32) (ix2 p j)
        = upTo (blk (V m c main_v11) (V m c main_v14) (V m c main_v15) (V m c main_v16)
              ((V m c main_v13 : FVec Ideal S4096x1 .f32) (ix2 (rowAt n p) 0)) (rowAt n p) j) (n % 86)
          + upTo (blk (V m c main_v11) (V m c main_v17) (V m c main_v18) (V m c main_v19)
              (1 - (V m c main_v13 : FVec Ideal S4096x1 .f32) (ix2 (rowAt n p) 0)) (rowAt n p) j) (n % 86) := by
    intro n hn h0 p j
    have e1 := outsAt0_A m c ⟨n, hn⟩ h0
    have e2 := out_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩)
    refine (congrFun (e1.trans e2) (ix2 p j)).trans ?_
    refine (step_apply (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (k0_pay3 (F := Ideal)) p j).trans ?_
    rw [vis_sum, lang_sum]
    have hb : blkAt n = ⟨0, by decide⟩ := Fin.ext h0
    rw [hb, h0]
    show ((Ideal.ofBits .f32 0x00000000#32 + _) + _) = _
    rw [Ideal.ofBits_zero_f32]
    exact first_step _ _
  intro n
  induction n with
  | zero => intro hn p j; exact first 0 hn rfl p j
  | succ n ih =>
    intro hn p j
    by_cases h0 : (n + 1) % 86 = 0
    · exact first (n + 1) hn h0 p j
    · have e1 := outsAt0_B m c ⟨n + 1, hn⟩ h0
      have e2 := out_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 m c n (Nat.lt_of_succ_lt hn))
      refine (congrFun (e1.trans e2) (ix2 p j)).trans ?_
      refine (step_apply (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 m c n (Nat.lt_of_succ_lt hn)) p j).trans ?_
      rw [vis_sum, lang_sum, ih (Nat.lt_of_succ_lt hn) p j]
      have hq : (n + 1) % 86 = n % 86 + 1 := by omega
      have hlt : n % 86 + 1 < 86 := by omega
      have hr : rowAt (n + 1) p = rowAt n p := Fin.ext (by show 512 * ((n + 1) / 86 % 8) + p.val = 512 * (n / 86 % 8) + p.val; omega)
      have hb : blkAt (n + 1) = ⟨n % 86 + 1, hlt⟩ := Fin.ext hq
      rw [hr, hb, hq]
      exact next_step _ _ (n % 86) hlt

end Cert.KernelIdeal.Blocks

end
-- ==== Proof.Result.lean ====
/-
  The output array after the last grid step.

  The output block of a row block is written back to the array once, at the row block's last step (step number ≡ 85
  mod 86), when it holds all 86 vision blocks plus all 86 language blocks of its 512 rows: that is the tiled layer on those
  rows.  The eight row blocks are rows 0…511, 512…1023, … of the array, so together they are the whole array, and the
  array ends holding the tiled layer of the arrays the region found.
-/
import proofs.«137866_j65927747994049_2_alg».proof.Proof.Blocks

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.Tiles

variable (m : (ℓ : Loc nD τ sig) → Buf (Elt Ideal) ℓ)

/-- The tiled layer of the arrays the region finds: what the output array will hold. -/
def out (c : Dev nD) : Buf (Elt Ideal) ((c : Thread nD τ).loc main_v20) :=
  tiled (V m c main_v11) (V m c main_v13) (V m c main_v14) (V m c main_v15) (V m c main_v16) (V m c main_v17) (V m c main_v18) (V m c main_v19)

/-- The accumulation at any index of the block. -/
theorem acc_at (c : Dev nD) (n : ℕ) (hn : n < cfg0.N) (y : S512x4096.Idx) :
    (outsAt0 m c n hn : FVec Ideal S512x4096 .f32) y
      = upTo (blk (V m c main_v11) (V m c main_v14) (V m c main_v15) (V m c main_v16)
            ((V m c main_v13 : FVec Ideal S4096x1 .f32) (ix2 (rowAt n (y 0)) 0)) (rowAt n (y 0)) (y 1)) (n % 86)
        + upTo (blk (V m c main_v11) (V m c main_v17) (V m c main_v18) (V m c main_v19)
            (1 - (V m c main_v13 : FVec Ideal S4096x1 .f32) (ix2 (rowAt n (y 0)) 0)) (rowAt n (y 0)) (y 1)) (n % 86) := by
  exact (congrArg (outsAt0 m c n hn : FVec Ideal S512x4096 .f32) (eq_ix2 y)).trans (acc_eq m c n hn (y 0) (y 1))

/-- WHAT A ROW BLOCK'S LAST STEP WRITES BACK is that row block of the tiled layer. -/
theorem flushed_eq (c : Dev nD) (t : Fin cfg0.N) (hf : (cfg0.win 8).flush t = true) :
    (dats m 0 c).flushed 8 t = ((cfg0.win 8).blk t).view.read (Elt Ideal) (out m c) := by
  have h85 : t.val % 86 = 85 := (flush0_8 t).mp hf
  have hN : t.val < 688 := lt_of_lt_of_eq t.isLt (show cfg0.N = 688 from N_0)
  show (cfg0.win 8).cut (grid0.coords t) ((dats m 0 c).after 8 t) = _
  rw [after0_8]
  refine funext fun (y : S512x4096.Idx) => ?_
  show (outsAt0 m c t.val t.isLt : FVec Ideal S512x4096 .f32) y = out m c (((cfg0.win 8).blk t).view.emb y)
  refine (acc_at m c t.val t.isLt y).trans ?_
  have e0 : (((cfg0.win 8).blk t).view.emb y) 0 = rowAt t.val (y 0) := Fin.ext (by
    show win0_8.index t 0 * 512 + 1 * (y 0).val = 512 * (t.val / 86 % 8) + (y 0).val
    rw [(idx8 t).1]; omega)
  have e1 : (((cfg0.win 8).blk t).view.emb y) 1 = y 1 := Fin.ext (by
    show win0_8.index t 1 * 4096 + 1 * (y 1).val = (y 1).val
    rw [(idx8 t).2]; omega)
  unfold out tiled
  rw [e0, e1, h85, upTo_last, upTo_last]

/-- An index of the array is in step `t`'s output block iff each coordinate is in the block's range on its axis. -/
theorem mem_blk (t : Fin cfg0.N) (i : S4096x4096.Idx) :
    i ∈ ((cfg0.win 8).blk t).view.set ↔ ∀ a : Fin 2, win0_8.index t a * S512x4096.size a ≤ (i a).val ∧ (i a).val < win0_8.index t a * S512x4096.size a + S512x4096.size a := by
  show i ∈ ((View.whole main_v20).slice (win0_8.rect t)).set ↔ _
  rw [View.set_slice_whole, Rect.mem_set_unit]
  exact Iff.rfl

/-- Every index of the array is in the block of its row block's last step. -/
theorem cover (i : S4096x4096.Idx) :
    ∃ t : Fin cfg0.N, (cfg0.win 8).flush t = true ∧ i ∈ ((cfg0.win 8).blk t).view.set := by
  have h0 : (i 0).val < 4096 := (i 0).isLt
  have h1 : (i 1).val < 4096 := (i 1).isLt
  have hN : cfg0.N = 688 := N_0
  have ht : 86 * ((i 0).val / 512) + 85 < cfg0.N := by rw [hN]; omega
  refine ⟨⟨86 * ((i 0).val / 512) + 85, ht⟩, (flush0_8 _).mpr (by show (86 * ((i 0).val / 512) + 85) % 86 = 85; omega), ?_⟩
  rw [mem_blk]
  obtain ⟨q0, q1⟩ := idx8 ⟨86 * ((i 0).val / 512) + 85, ht⟩
  intro a
  match a with
  | ⟨0, _⟩ =>
    show win0_8.index ⟨86 * ((i 0).val / 512) + 85, ht⟩ 0 * 512 ≤ (i 0).val ∧ (i 0).val < win0_8.index ⟨86 * ((i 0).val / 512) + 85, ht⟩ 0 * 512 + 512
    rw [q0]
    show (86 * ((i 0).val / 512) + 85) / 86 * 512 ≤ (i 0).val ∧ (i 0).val < (86 * ((i 0).val / 512) + 85) / 86 * 512 + 512
    omega
  | ⟨1, _⟩ =>
    show win0_8.index ⟨86 * ((i 0).val / 512) + 85, ht⟩ 1 * 4096 ≤ (i 1).val ∧ (i 1).val < win0_8.index ⟨86 * ((i 0).val / 512) + 85, ht⟩ 1 * 4096 + 4096
    rw [q1]
    omega

/-- THE OUTPUT ARRAY after the run is the tiled layer of the arrays the region found. -/
theorem final (c : Dev nD) : (dats m 0 c).arrAt 8 cfg0.N = out m c :=
  (dats m 0 c).arrAt_eq_of_cover 8 (out m c) (flushed_eq m c) (cover)

end Cert.KernelIdeal.Result

end
-- ==== Proof.HostSide.lean ====
/-
  Around the region: what the arrays hold when the region is entered, and what the program returns.

  Before the region the host flattens the tokens `[2, 2048, 4096] → [4096, 4096]`, computes the one-bit mask from the
  token types, flattens it to a column `[4096, 1]` and reads each bit as the number 0 or 1, and narrows the number format
  of the tokens and of the six weight matrices (which does nothing to an extended real).  After the region it reshapes the
  output array `[4096, 4096] → [2, 2048, 4096]`.  So the program returns the tiled layer of those arrays, re-indexed.
-/
import proofs.«137866_j65927747994049_2_alg».proof.Proof.Result
import Idealize.ShloMosaic.Lib.StableHlo.Run

noncomputable section

namespace Cert.KernelIdeal.HostSide

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Result

variable (m : (ℓ : Loc nD τ sig) → Buf (Elt Ideal) ℓ) (ρ : Dev nD → PrngReg)

/-- The one-bit mask as the host computes it from the token types (never opened: both programs compute this term). -/
def mask (x1 : (⟨S2x2048, .i32⟩ : BufTy).Contents (Elt Ideal)) : (⟨S2x2048, .i1⟩ : BufTy).Contents (Elt Ideal) :=
  Host.scatter scatter_S2x2048_S1_S2x2047_01_n_1_0 (fun _ b => b) (broadcastInDim S2x2048 ![] bcast_S_S2x2048 (constantI S_ 1 0#1)) (broadcastInDim S1 ![] bcast_S_S1 (constantI S_ 32 0#32)) (andi (cmpi .eq (extractStridedSlice S2x2047 ![0, 0] x1 slices_S2x2048_S2x2047_0_0) (broadcastInDim S2x2047 ![] bcast_S_S2x2047 (constantI S_ 32 1#32))) (cmpi .eq (extractStridedSlice S2x2047 ![0, 1] x1 slices_S2x2048_S2x2047_0_1) (broadcastInDim S2x2047 ![] bcast_S_S2x2047 (constantI S_ 32 1#32))))

/-- The flattened tokens the region finds. -/
theorem V_tok (c : Dev nD) : (V m c main_v11 : FVec Ideal S4096x4096 .bf16)
    = truncf .bf16 (shapeCast S4096x4096 (m ((c.tc : Thread nD τ).loc main_arg0)) shapeCasts_S2x2048x4096_S4096x4096 : FVec Ideal S4096x4096 .f32) bitsLt_bf16_f32 := by
  show StableHlo.after hostOps0 (fun b => m (c, b)) (Proc.devRef .tc main_v11) = _
  after_results
  rfl

/-- The mask column the region finds. -/
theorem V_mask (c : Dev nD) : (V m c main_v13 : FVec Ideal S4096x1 .f32)
    = (uitofp (F := Ideal) .f32 (shapeCast S4096x1 (mask (m ((c.tc : Thread nD τ).loc main_arg1))) shapeCasts_S2x2048_S4096x1) : FVec Ideal S4096x1 .f32) := by
  show StableHlo.after hostOps0 (fun b => m (c, b)) (Proc.devRef .tc main_v13) = _
  after_results
  rfl

theorem V_vgate (c : Dev nD) : (V m c main_v14 : FVec Ideal S4096x11008 .bf16)
    = (truncf (F := Ideal) .bf16 (m ((c.tc : Thread nD τ).loc main_arg5) : FVec Ideal S4096x11008 .f32) bitsLt_bf16_f32 : FVec Ideal S4096x11008 .bf16) := by
  show StableHlo.after hostOps0 (fun b => m (c, b)) (Proc.devRef .tc main_v14) = _
  after_results

theorem V_vup (c : Dev nD) : (V m c main_v15 : FVec Ideal S4096x11008 .bf16)
    = (truncf (F := Ideal) .bf16 (m ((c.tc : Thread nD τ).loc main_arg6) : FVec Ideal S4096x11008 .f32) bitsLt_bf16_f32 : FVec Ideal S4096x11008 .bf16) := by
  show StableHlo.after hostOps0 (fun b => m (c, b)) (Proc.devRef .tc main_v15) = _
  after_results

theorem V_vdown (c : Dev nD) : (V m c main_v16 : FVec Ideal S11008x4096 .bf16)
    = (truncf (F := Ideal) .bf16 (m ((c.tc : Thread nD τ).loc main_arg7) : FVec Ideal S11008x4096 .f32) bitsLt_bf16_f32 : FVec Ideal S11008x4096 .bf16) := by
  show StableHlo.after hostOps0 (fun b => m (c, b)) (Proc.devRef .tc main_v16) = _
  after_results

theorem V_lgate (c : Dev nD) : (V m c main_v17 : FVec Ideal S4096x11008 .bf16)
    = (truncf (F := Ideal) .bf16 (m ((c.tc : Thread nD τ).loc main_arg2) : FVec Ideal S4096x11008 .f32) bitsLt_bf16_f32 : FVec Ideal S4096x11008 .bf16) := by
  show StableHlo.after hostOps0 (fun b => m (c, b)) (Proc.devRef .tc main_v17) = _
  after_results

theorem V_lup (c : Dev nD) : (V m c main_v18 : FVec Ideal S4096x11008 .bf16)
    = (truncf (F := Ideal) .bf16 (m ((c.tc : Thread nD τ).loc main_arg3) : FVec Ideal S4096x11008 .f32) bitsLt_bf16_f32 : FVec Ideal S4096x11008 .bf16) := by
  show StableHlo.after hostOps0 (fun b => m (c, b)) (Proc.devRef .tc main_v18) = _
  after_results

theorem V_ldown (c : Dev nD) : (V m c main_v19 : FVec Ideal S11008x4096 .bf16)
    = (truncf (F := Ideal) .bf16 (m ((c.tc : Thread nD τ).loc main_arg4) : FVec Ideal S11008x4096 .f32) bitsLt_bf16_f32 : FVec Ideal S11008x4096 .bf16) := by
  show StableHlo.after hostOps0 (fun b => m (c, b)) (Proc.devRef .tc main_v19) = _
  after_results

/-- What the program returns: the output array re-indexed to `[2, 2048, 4096]`. -/
def returned (c : Dev nD) : Buf (Elt Ideal) ((c.tc : Thread nD τ).loc main_v21) :=
  shapeCast S2x2048x4096 (out m c) shapeCasts_S4096x4096_S2x2048x4096

/-- The host operation after the region reads the output array the region left. -/
theorem tail_eq (c : Dev nD) :
    Pipeline.afterTail₀ cfgs (dats m) 0 (V0 m) [hostOps1] c main_v21 = returned m c := by
  unfold Pipeline.afterTail₀
  show StableHlo.after hostOps1 _ (Proc.devRef .tc main_v21) = _
  after_results
  have e := (Pipeline.withArrays_arr spec0 launch0.win.arr_inj c (V0 m c) (fun w => (dats m 0 c).arrAt w cfg0.N) 8).trans (final m c)
  exact congrArg (fun A => shapeCast S2x2048x4096 A shapeCasts_S4096x4096_S2x2048x4096) e

end Cert.KernelIdeal.HostSide

end
-- ==== Proof.Select.lean ====
/-
  With a mask value of exactly 0 or 1 the tiled layer is the selected expert's output.

  The blocks of 128 intermediate features add up to the sum over all 11008.  If the token's bit is set its mask value is
  1: every vision term keeps its value (· 1) and every language term carries 1 − 1 = 0, so the language sum is 0.  If the
  bit is clear the mask value is 0 and it is the other way round.  Only  x · 1 = x,  x · 0 = 0,  0 · x = 0,  x + 0 = x  are
  used, which hold for every extended real.
-/
import proofs.«137866_j65927747994049_2_alg».proof.Proof.Tiles

noncomputable section

open scoped BigOperators

namespace Cert.Tiles

open Idealize.ShloMosaic Idealize.ShloMosaic.ValueIdx Cert.Spec

theorem one_sub_one : (1 : EReal) - 1 = 0 := by
  rw [← EReal.coe_one, ← EReal.coe_sub, sub_self, EReal.coe_zero]

theorem one_sub_zero : (1 : EReal) - 0 = 1 := by
  rw [← EReal.coe_one, ← EReal.coe_zero, ← EReal.coe_sub, sub_zero]

/-- Row `r` of the flattened tokens is token `(b, s)`, and its mask value is the token's bit read as a number: then
    entry `(r, j)` of the tiled layer is the selected expert's output for the token. -/
theorem tiled_eq (X : SA.Idx → EReal) (Mc : SC.Idx → EReal) (VG VU : SU.Idx → EReal) (VD : SD.Idx → EReal)
    (LG LU : SU.Idx → EReal) (LD : SD.Idx → EReal) (x : ST.Idx → EReal) (bit : BitVec 1)
    (b : Fin 2) (s : Fin 2048) (r j : Fin 4096)
    (hX : ∀ h : Fin 4096, X (ix2 r h) = x (ix3 b s h)) (hM : Mc (ix2 r 0) = ((bit.toNat : ℝ) : EReal)) :
    tiled X Mc VG VU VD LG LU LD (ix2 r j)
      = if bit = 1#1 then expert x VG VU VD b s j else expert x LG LU LD b s j := by
  have hg : ∀ (Wg Wu : SU.Idx → EReal) (i : Fin 11008), gactG X Wg Wu r i = act x Wg Wu b s i := by
    intro Wg Wu i
    unfold gactG act proj
    simp only [hX]
  have hs : ∀ (Wg Wu : SU.Idx → EReal) (Wd : SD.Idx → EReal) (μ : EReal),
      ∑ bb : Fin 86, blk X Wg Wu Wd μ r j bb = ∑ i : Fin 11008, (act x Wg Wu b s i * μ) * Wd (ix2 i j) := by
    intro Wg Wu Wd μ
    rw [sum_blocks (fun i => (act x Wg Wu b s i * μ) * Wd (ix2 i j))]
    unfold blk
    simp only [hg]
  show (∑ bb : Fin 86, blk X VG VU VD (Mc (ix2 r 0)) r j bb) + ∑ bb : Fin 86, blk X LG LU LD (1 - Mc (ix2 r 0)) r j bb = _
  rw [hs, hs, hM]
  by_cases hb : bit = 1#1
  · subst hb
    rw [if_pos rfl]
    have h1 : (((1#1 : BitVec 1).toNat : ℝ) : EReal) = 1 := by simp
    rw [h1, one_sub_one]
    simp only [mul_one, mul_zero, zero_mul, Finset.sum_const_zero, add_zero]
    rfl
  · obtain rfl : bit = 0#1 := eq_zero_of_ne_one hb
    rw [if_neg hb]
    have h0 : (((0#1 : BitVec 1).toNat : ℝ) : EReal) = 0 := by simp
    rw [h0, one_sub_zero]
    simp only [mul_one, mul_zero, zero_mul, Finset.sum_const_zero, zero_add]
    rfl

end Cert.Tiles

end
-- ==== Proof.KernelRun.lean ====
/-
  The idealized kernel program returns the layer.

  Row `r = 2048·b + s` of the flattened tokens is token `(b, s)`; the mask column at row `r` is the token's bit read as 0
  or 1; the narrowed weight matrices are the weight matrices.  So the tiled layer at `(r, j)` is the selected expert's
  output for token `(b, s)` at feature `j`, and the final reshape reads entry `(b, s, j)` of the result at `(r, j)`.
-/
import proofs.«137866_j65927747994049_2_alg».proof.Proof.HostSide
import proofs.«137866_j65927747994049_2_alg».proof.Proof.Select

noncomputable section

namespace Cert.KernelIdeal.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Result Cert.KernelIdeal.HostSide Cert.Tiles

variable (m : (ℓ : Loc nD τ sig) → Buf (Elt Ideal) ℓ) (ρ : Dev nD → PrngReg)

/-- What the program returns is the layer of its arguments. -/
theorem returned_eq (c : Dev nD) :
    returned m c = Cert.Spec.layer (m ((c.tc : Thread nD τ).loc main_arg0)) (mask (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨b, s, j, rfl⟩ : ∃ (b : Fin 2) (s : Fin 2048) (j : Fin 4096), i = ix3 b s j := ⟨i 0, i 1, i 2, eq_ix3 i⟩
  have hb := b.isLt
  have hs := s.isLt
  have hr : 2048 * b.val + s.val < 4096 := by omega
  unfold returned
  rw [shapeCast_apply (out m c) shapeCasts_S4096x4096_S2x2048x4096 (ix3 b s j) (ix2 ⟨2048 * b.val + s.val, hr⟩ j) (by
    show (S4096x4096.rowMajor (ix2 (⟨2048 * b.val + s.val, hr⟩ : Fin 4096) j)).val = (S2x2048x4096.rowMajor (ix3 b s j)).val
    rw [Shape.rowMajor_val_two, Shape.rowMajor_val_three]
    show (2048 * b.val + s.val) * 4096 + j.val = (b.val * 2048 + s.val) * 4096 + j.val
    omega)]
  unfold out
  rw [V_tok, V_mask, V_vgate, V_vup, V_vdown, V_lgate, V_lup, V_ldown]
  refine (tiled_eq _ _ _ _ _ _ _ _ (m ((c.tc : Thread nD τ).loc main_arg0)) (mask (m ((c.tc : Thread nD τ).loc main_arg1)) (ix2 b s)) b s ⟨2048 * b.val + s.val, hr⟩ j (fun h => ?_) ?_).trans ?_
  · show shapeCast S4096x4096 (m ((c.tc : Thread nD τ).loc main_arg0)) shapeCasts_S2x2048x4096_S4096x4096 (ix2 ⟨2048 * b.val + s.val, hr⟩ h) = _
    exact shapeCast_apply _ _ _ (ix3 b s h) (by
      show (S2x2048x4096.rowMajor (ix3 b s h)).val = (S4096x4096.rowMajor (ix2 (⟨2048 * b.val + s.val, hr⟩ : Fin 4096) h)).val
      rw [Shape.rowMajor_val_two, Shape.rowMajor_val_three]
      show (b.val * 2048 + s.val) * 4096 + h.val = (2048 * b.val + s.val) * 4096 + h.val
      omega)
  · show (((shapeCast S4096x1 (mask (m ((c.tc : Thread nD τ).loc main_arg1))) shapeCasts_S2x2048_S4096x1 (ix2 ⟨2048 * b.val + s.val, hr⟩ 0)).toNat : ℝ) : EReal) = _
    rw [shapeCast_apply (mask (m ((c.tc : Thread nD τ).loc main_arg1))) shapeCasts_S2x2048_S4096x1 (ix2 ⟨2048 * b.val + s.val, hr⟩ 0) (ix2 b s) (by
      show (S2x2048.rowMajor (ix2 b s)).val = (S4096x1.rowMajor (ix2 (⟨2048 * b.val + s.val, hr⟩ : Fin 4096) (0 : Fin 1))).val
      rw [Shape.rowMajor_val_two, Shape.rowMajor_val_two]
      show b.val * 2048 + s.val = (2048 * b.val + s.val) * 1 + 0
      omega)]
  · rfl

/-- THE RUN: every execution of the idealized kernel program ends with its result at the layer of the arguments, the
    arguments unchanged. -/
theorem run : θ_run defs (onTc (τ := τ) (main (F := Ideal))) ⟨m, fun _ => 0, ρ⟩ fun r => ∀ c : Dev nD,
      r.2.mem ((c.tc : Thread nD τ).loc main_v21) = Cert.Spec.layer (m ((c.tc : Thread nD τ).loc main_arg0)) (mask (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(((h c).2 main_v21 (Pipeline.mem_restRefs_of main_v21 (by decide) (by decide))).trans (tail_eq m c)).trans (returned_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.KernelRun

end
-- ==== Proof.RefSide.lean ====
/-
  The reference program read as mathematics.

  The reference computes, for 2 × 2048 tokens of 4096 features each, a gated feed-forward layer twice — once with the
  "vision" weights (its arguments 5, 6, 7) and once with the "language" weights (its arguments 2, 3, 4) — and then picks,
  token by token, the first result where a one-bit mask is set and the second elsewhere.  The mask is a function of the
  integer argument (argument 1) alone.  One gated feed-forward layer is
      out[b,s,j] = ∑ᵢ ( g · (1 / (1 + e^(-g))) · u ) · Wd[i,j],   g = ∑ₕ x[b,s,h] · Wg[h,i],   u = ∑ₕ x[b,s,h] · Wu[h,i],
  and 1 / (1 + e^(-g)) is the logistic function of g by definition.

  The program is a straight line of 43 host operations.  Its run is read in two consecutive segments from an arbitrary
  starting valuation: the first 27 operations (the mask, then the vision expert), and the last 16 (the language expert,
  the mask's two broadcasts and the selection).
-/
import proofs.«137866_j65927747994049_2_alg».proof.Defs
import proofs.«137866_j65927747994049_2_alg».proof.Proof.Gen.ReferenceIdeal
import proofs.«137866_j65927747994049_2_alg».proof.Proof.Spec
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

variable {F : FTy → Type} [FloatOps F]

/-! ## The staged terms -/

/-- The token-type mask, a function of the integer argument alone: the conjunction of "entry s is 1" and
    "entry s+1 is 1", for s < 2047, scattered into an all-zero array.  Only that it is a function of argument 1 is used. -/
def refMask {F : FTy → Type} [FloatOps F] (x1 : (⟨S2x2048, .i32⟩ : BufTy).Contents (Elt F)) : (⟨S2x2048, .i1⟩ : BufTy).Contents (Elt F) :=
  Host.scatter scatter_S2x2048_S1_S2x2047_01_n_1_0 (fun _ b => b) (broadcastInDim S2x2048 ![] bcast_S_S2x2048 (constantI S_ 1 0#1)) (broadcastInDim S1 ![] bcast_S_S1 (constantI S_ 32 0#32)) (andi (cmpi .eq (extractStridedSlice S2x2047 ![0, 0] x1 slices_S2x2048_S2x2047_0_0) (broadcastInDim S2x2047 ![] bcast_S_S2x2047 (constantI S_ 32 1#32))) (cmpi .eq (extractStridedSlice S2x2047 ![0, 1] x1 slices_S2x2048_S2x2047_0_1) (broadcastInDim S2x2047 ![] bcast_S_S2x2047 (constantI S_ 32 1#32))))

/-- A projection of the tokens onto the 11008 intermediate features: the contraction over the 4096 features. -/
def up (x : (⟨S2x2048x4096, .f32⟩ : BufTy).Contents (Elt F)) (w : (⟨S4096x11008, .f32⟩ : BufTy).Contents (Elt F)) :
    (⟨S2x2048x11008, .f32⟩ : BufTy).Contents (Elt F) :=
  Host.dotGeneral dot_S2x2048x4096_S4096x11008_S2x2048x11008_2_0_01_1_n_n none x w

/-- g ↦ g · (1 / (1 + e^(-g))), elementwise, as the program spells it. -/
def silu (g : (⟨S2x2048x11008, .f32⟩ : BufTy).Contents (Elt F)) : (⟨S2x2048x11008, .f32⟩ : BufTy).Contents (Elt F) :=
  mulf g (Host.divf (broadcastInDim S2x2048x11008 ![] bcast_S_S2x2048x11008 (constant S_ .f32 0x3F800000#32))
    (addf (broadcastInDim S2x2048x11008 ![] bcast_S_S2x2048x11008 (constant S_ .f32 0x3F800000#32)) (Host.exp (Host.negf g))))

/-- One expert: the gated product of the two projections, contracted over the 11008 intermediate features. -/
def expertTerm (x : (⟨S2x2048x4096, .f32⟩ : BufTy).Contents (Elt F)) (wg wu : (⟨S4096x11008, .f32⟩ : BufTy).Contents (Elt F))
    (wd : (⟨S11008x4096, .f32⟩ : BufTy).Contents (Elt F)) : (⟨S2x2048x4096, .f32⟩ : BufTy).Contents (Elt F) :=
  Host.dotGeneral dot_S2x2048x11008_S11008x4096_S2x2048x4096_2_0_01_1_n_n none (mulf (silu (up x wg)) (up x wu)) wd

/-- The mask broadcast along the feature axis (through an axis of extent one), then the selection. -/
def pick (mk : (⟨S2x2048, .i1⟩ : BufTy).Contents (Elt F)) (a b : (⟨S2x2048x4096, .f32⟩ : BufTy).Contents (Elt F)) :
    (⟨S2x2048x4096, .f32⟩ : BufTy).Contents (Elt F) :=
  select (broadcastInDim S2x2048x4096 ![0, 1, 2] bcast_S2x2048x1_S2x2048x4096_0_1_2
    (broadcastInDim S2x2048x1 ![0, 1] bcast_S2x2048_S2x2048x1_0_1 mk)) a b

/-! ## The operations, in two segments -/

/-- The first 27 operations: the mask, then the vision expert (the operations of its activation in the call's place). -/
abbrev segA : List (HloOp τ sig (Elt F)) :=
  [ nullary main_c (constantI S_ 1 0#1),
    unary main_c main_v0 (broadcastInDim S2x2048 ![] bcast_S_S2x2048 : (⟨S_, .i1⟩ : BufTy).Contents (Elt F) → (⟨S2x2048, .i1⟩ : BufTy).Contents (Elt F)),
    unary main_arg1 main_v1 ((extractStridedSlice S2x2047 ![0, 0] · slices_S2x2048_S2x2047_0_0) : (⟨S2x2048, .i32⟩ : BufTy).Contents (Elt F) → (⟨S2x2047, .i32⟩ : BufTy).Contents (Elt F)),
    nullary main_c_0 (constantI S_ 32 1#32),
    unary main_c_0 main_v2 (broadcastInDim S2x2047 ![] bcast_S_S2x2047 : (⟨S_, .i32⟩ : BufTy).Contents (Elt F) → (⟨S2x2047, .i32⟩ : BufTy).Contents (Elt F)),
    binary main_v1 main_v2 main_v3 (cmpi .eq : (⟨S2x2047, .i32⟩ : BufTy).Contents (Elt F) → (⟨S2x2047, .i32⟩ : BufTy).Contents (Elt F) → (⟨S2x2047, .i1⟩ : BufTy).Contents (Elt F)),
    unary main_arg1 main_v4 ((extractStridedSlice S2x2047 ![0, 1] · slices_S2x2048_S2x2047_0_1) : (⟨S2x2048, .i32⟩ : BufTy).Contents (Elt F) → (⟨S2x2047, .i32⟩ : BufTy).Contents (Elt F)),
    nullary main_c_1 (constantI S_ 32 1#32),
    unary main_c_1 main_v5 (broadcastInDim S2x2047 ![] bcast_S_S2x2047 : (⟨S_, .i32⟩ : BufTy).Contents (Elt F) → (⟨S2x2047, .i32⟩ : BufTy).Contents (Elt F)),
    binary main_v4 main_v5 main_v6 (cmpi .eq : (⟨S2x2047, .i32⟩ : BufTy).Contents (Elt F) → (⟨S2x2047, .i32⟩ : BufTy).Contents (Elt F) → (⟨S2x2047, .i1⟩ : BufTy).Contents (Elt F)),
    binary main_v3 main_v6 main_v7 (andi : (⟨S2x2047, .i1⟩ : BufTy).Contents (Elt F) → (⟨S2x2047, .i1⟩ : BufTy).Contents (Elt F) → (⟨S2x2047, .i1⟩ : BufTy).Contents (Elt F)),
    nullary main_c_2 (constantI S_ 32 0#32),
    unary main_c_2 main_v8 (broadcastInDim S1 ![] bcast_S_S1 : (⟨S_, .i32⟩ : BufTy).Contents (Elt F) → (⟨S1, .i32⟩ : BufTy).Contents (Elt F)),
    ternary main_v0 main_v8 main_v7 main_v9 ((fun x i u => Host.scatter scatter_S2x2048_S1_S2x2047_01_n_1_0 (fun _ b => b) x i u) : (⟨S2x2048, .i1⟩ : BufTy).Contents (Elt F) → (⟨S1, .i32⟩ : BufTy).Contents (Elt F) → (⟨S2x2047, .i1⟩ : BufTy).Contents (Elt F) → (⟨S2x2048, .i1⟩ : BufTy).Contents (Elt F)),
    binary main_arg0 main_arg5 main_v10 ((fun l r => Host.dotGeneral dot_S2x2048x4096_S4096x11008_S2x2048x11008_2_0_01_1_n_n none l r) : (⟨S2x2048x4096, .f32⟩ : BufTy).Contents (Elt F) → (⟨S4096x11008, .f32⟩ : BufTy).Contents (Elt F) → (⟨S2x2048x11008, .f32⟩ : BufTy).Contents (Elt F)),
    TRef.unary (TRef.of (T := ⟨S2x2048x11008, .f32⟩) main_v10) (TRef.of (T := ⟨S2x2048x11008, .f32⟩) main_call0_v0) Host.negf,
    TRef.unary (TRef.of (T := ⟨S2x2048x11008, .f32⟩) main_call0_v0) (TRef.of (T := ⟨S2x2048x11008, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S2x2048x11008, .f32⟩) main_call0_v2) (broadcastInDim S2x2048x11008 ![] bcast_S_S2x2048x11008),
    TRef.binary (TRef.of (T := ⟨S2x2048x11008, .f32⟩) main_call0_v2) (TRef.of (T := ⟨S2x2048x11008, .f32⟩) main_call0_v1) (TRef.of (T := ⟨S2x2048x11008, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S2x2048x11008, .f32⟩) main_call0_v4) (broadcastInDim S2x2048x11008 ![] bcast_S_S2x2048x11008),
    TRef.binary (TRef.of (T := ⟨S2x2048x11008, .f32⟩) main_call0_v4) (TRef.of (T := ⟨S2x2048x11008, .f32⟩) main_call0_v3) (TRef.of (T := ⟨S2x2048x11008, .f32⟩) main_call0_v5) Host.divf,
    TRef.binary (TRef.of (T := ⟨S2x2048x11008, .f32⟩) main_v10) (TRef.of (T := ⟨S2x2048x11008, .f32⟩) main_call0_v5) (TRef.of (T := ⟨S2x2048x11008, .f32⟩) main_v11) mulf,
    binary main_arg0 main_arg6 main_v12 ((fun l r => Host.dotGeneral dot_S2x2048x4096_S4096x11008_S2x2048x11008_2_0_01_1_n_n none l r) : (⟨S2x2048x4096, .f32⟩ : BufTy).Contents (Elt F) → (⟨S4096x11008, .f32⟩ : BufTy).Contents (Elt F) → (⟨S2x2048x11008, .f32⟩ : BufTy).Contents (Elt F)),
    binary main_v11 main_v12 main_v13 (mulf : (⟨S2x2048x11008, .f32⟩ : BufTy).Contents (Elt F) → (⟨S2x2048x11008, .f32⟩ : BufTy).Contents (Elt F) → (⟨S2x2048x11008, .f32⟩ : BufTy).Contents (Elt F)),
    binary main_v13 main_arg7 main_v14 ((fun l r => Host.dotGeneral dot_S2x2048x11008_S11008x4096_S2x2048x4096_2_0_01_1_n_n none l r) : (⟨S2x2048x11008, .f32⟩ : BufTy).Contents (Elt F) → (⟨S11008x4096, .f32⟩ : BufTy).Contents (Elt F) → (⟨S2x2048x4096, .f32⟩ : BufTy).Contents (Elt F)) ]

/-- The last 16 operations: the language expert, the mask's broadcasts and the selection. -/
abbrev segB : List (HloOp τ sig (Elt F)) :=
  [ binary main_arg0 main_arg2 main_v15 ((fun l r => Host.dotGeneral dot_S2x2048x4096_S4096x11008_S2x2048x11008_2_0_01_1_n_n none l r) : (⟨S2x2048x4096, .f32⟩ : BufTy).Contents (Elt F) → (⟨S4096x11008, .f32⟩ : BufTy).Contents (Elt F) → (⟨S2x2048x11008, .f32⟩ : BufTy).Contents (Elt F)),
    TRef.unary (TRef.of (T := ⟨S2x2048x11008, .f32⟩) main_v15) (TRef.of (T := ⟨S2x2048x11008, .f32⟩) main_call1_v0) Host.negf,
    TRef.unary (TRef.of (T := ⟨S2x2048x11008, .f32⟩) main_call1_v0) (TRef.of (T := ⟨S2x2048x11008, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S2x2048x11008, .f32⟩) main_call1_v2) (broadcastInDim S2x2048x11008 ![] bcast_S_S2x2048x11008),
    TRef.binary (TRef.of (T := ⟨S2x2048x11008, .f32⟩) main_call1_v2) (TRef.of (T := ⟨S2x2048x11008, .f32⟩) main_call1_v1) (TRef.of (T := ⟨S2x2048x11008, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S2x2048x11008, .f32⟩) main_call1_v4) (broadcastInDim S2x2048x11008 ![] bcast_S_S2x2048x11008),
    TRef.binary (TRef.of (T := ⟨S2x2048x11008, .f32⟩) main_call1_v4) (TRef.of (T := ⟨S2x2048x11008, .f32⟩) main_call1_v3) (TRef.of (T := ⟨S2x2048x11008, .f32⟩) main_call1_v5) Host.divf,
    TRef.binary (TRef.of (T := ⟨S2x2048x11008, .f32⟩) main_v15) (TRef.of (T := ⟨S2x2048x11008, .f32⟩) main_call1_v5) (TRef.of (T := ⟨S2x2048x11008, .f32⟩) main_v16) mulf,
    binary main_arg0 main_arg3 main_v17 ((fun l r => Host.dotGeneral dot_S2x2048x4096_S4096x11008_S2x2048x11008_2_0_01_1_n_n none l r) : (⟨S2x2048x4096, .f32⟩ : BufTy).Contents (Elt F) → (⟨S4096x11008, .f32⟩ : BufTy).Contents (Elt F) → (⟨S2x2048x11008, .f32⟩ : BufTy).Contents (Elt F)),
    binary main_v16 main_v17 main_v18 (mulf : (⟨S2x2048x11008, .f32⟩ : BufTy).Contents (Elt F) → (⟨S2x2048x11008, .f32⟩ : BufTy).Contents (Elt F) → (⟨S2x2048x11008, .f32⟩ : BufTy).Contents (Elt F)),
    binary main_v18 main_arg4 main_v19 ((fun l r => Host.dotGeneral dot_S2x2048x11008_S11008x4096_S2x2048x4096_2_0_01_1_n_n none l r) : (⟨S2x2048x11008, .f32⟩ : BufTy).Contents (Elt F) → (⟨S11008x4096, .f32⟩ : BufTy).Contents (Elt F) → (⟨S2x2048x4096, .f32⟩ : BufTy).Contents (Elt F)),
    unary main_v9 main_v20 (broadcastInDim S2x2048x1 ![0, 1] bcast_S2x2048_S2x2048x1_0_1 : (⟨S2x2048, .i1⟩ : BufTy).Contents (Elt F) → (⟨S2x2048x1, .i1⟩ : BufTy).Contents (Elt F)),
    TRef.unary (TRef.of (T := ⟨S2x2048x1, .i1⟩) main_v20) (TRef.of (T := ⟨S2x2048x4096, .i1⟩) main_call2_v0) (broadcastInDim S2x2048x4096 ![0, 1, 2] bcast_S2x2048x1_S2x2048x4096_0_1_2),
    TRef.ternary (TRef.of (T := ⟨S2x2048x4096, .i1⟩) main_call2_v0) (TRef.of (T := ⟨S2x2048x4096, .f32⟩) main_v14) (TRef.of (T := ⟨S2x2048x4096, .f32⟩) main_v19) (TRef.of (T := ⟨S2x2048x4096, .f32⟩) main_v21) select ]

/-- @main's 43 operations, in order. -/
abbrev ops : List (HloOp τ sig (Elt F)) := segA ++ segB

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub .., unary_bufs_sub .., nullary_bufs_sub .., unary_bufs_sub .., binary_bufs_sub .., binary_bufs_sub .., nullary_bufs_sub .., unary_bufs_sub .., ternary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., unary_bufs_sub .., ternary_bufs_sub ..⟩

/-! ## The two segments read from an arbitrary valuation -/

section Segments

variable (W : Valuation τ sig (Elt F))

set_option maxRecDepth 8192 in
/-- After the first segment the mask's buffer holds the mask of the integer argument. -/
theorem segA_v9 : after segA W (Proc.devRef .tc main_v9) = refMask (W (Proc.devRef .tc main_arg1)) := by
  after_results_simp <;> rfl

set_option maxRecDepth 8192 in
/-- After the first segment the vision expert's buffer holds the expert of arguments 0, 5, 6, 7. -/
theorem segA_v14 : after segA W (Proc.devRef .tc main_v14)
    = expertTerm (W (Proc.devRef .tc main_arg0)) (W (Proc.devRef .tc main_arg5)) (W (Proc.devRef .tc main_arg6)) (W (Proc.devRef .tc main_arg7)) := by
  after_results_simp <;> rfl

set_option maxRecDepth 8192 in
/-- After the second segment the result buffer holds the selection, by the mask's buffer, between the vision expert's
    buffer and the language expert of arguments 0, 2, 3, 4. -/
theorem segB_v21 : after segB W (Proc.devRef .tc main_v21)
    = pick (W (Proc.devRef .tc main_v9)) (W (Proc.devRef .tc main_v14))
        (expertTerm (W (Proc.devRef .tc main_arg0)) (W (Proc.devRef .tc main_arg2)) (W (Proc.devRef .tc main_arg3)) (W (Proc.devRef .tc main_arg4))) := by
  after_results_simp <;> rfl

/-! Neither segment writes an argument's buffer. -/
set_option maxRecDepth 8192 in
theorem segA_arg0 : after segA W (Proc.devRef .tc main_arg0) = W (Proc.devRef .tc main_arg0) := by
  after_results_simp
set_option maxRecDepth 8192 in
theorem segA_arg1 : after segA W (Proc.devRef .tc main_arg1) = W (Proc.devRef .tc main_arg1) := by
  after_results_simp
set_option maxRecDepth 8192 in
theorem segA_arg2 : after segA W (Proc.devRef .tc main_arg2) = W (Proc.devRef .tc main_arg2) := by
  after_results_simp
set_option maxRecDepth 8192 in
theorem segA_arg3 : after segA W (Proc.devRef .tc main_arg3) = W (Proc.devRef .tc main_arg3) := by
  after_results_simp
set_option maxRecDepth 8192 in
theorem segA_arg4 : after segA W (Proc.devRef .tc main_arg4) = W (Proc.devRef .tc main_arg4) := by
  after_results_simp
set_option maxRecDepth 8192 in
theorem segA_arg5 : after segA W (Proc.devRef .tc main_arg5) = W (Proc.devRef .tc main_arg5) := by
  after_results_simp
set_option maxRecDepth 8192 in
theorem segA_arg6 : after segA W (Proc.devRef .tc main_arg6) = W (Proc.devRef .tc main_arg6) := by
  after_results_simp
set_option maxRecDepth 8192 in
theorem segA_arg7 : after segA W (Proc.devRef .tc main_arg7) = W (Proc.devRef .tc main_arg7) := by
  after_results_simp
set_option maxRecDepth 8192 in
theorem segB_arg0 : after segB W (Proc.devRef .tc main_arg0) = W (Proc.devRef .tc main_arg0) := by
  after_results_simp
set_option maxRecDepth 8192 in
theorem segB_arg1 : after segB W (Proc.devRef .tc main_arg1) = W (Proc.devRef .tc main_arg1) := by
  after_results_simp
set_option maxRecDepth 8192 in
theorem segB_arg2 : after segB W (Proc.devRef .tc main_arg2) = W (Proc.devRef .tc main_arg2) := by
  after_results_simp
set_option maxRecDepth 8192 in
theorem segB_arg3 : after segB W (Proc.devRef .tc main_arg3) = W (Proc.devRef .tc main_arg3) := by
  after_results_simp
set_option maxRecDepth 8192 in
theorem segB_arg4 : after segB W (Proc.devRef .tc main_arg4) = W (Proc.devRef .tc main_arg4) := by
  after_results_simp
set_option maxRecDepth 8192 in
theorem segB_arg5 : after segB W (Proc.devRef .tc main_arg5) = W (Proc.devRef .tc main_arg5) := by
  after_results_simp
set_option maxRecDepth 8192 in
theorem segB_arg6 : after segB W (Proc.devRef .tc main_arg6) = W (Proc.devRef .tc main_arg6) := by
  after_results_simp
set_option maxRecDepth 8192 in
theorem segB_arg7 : after segB W (Proc.devRef .tc main_arg7) = W (Proc.devRef .tc main_arg7) := by
  after_results_simp

end Segments

/-! ## The whole line: the second segment run from where the first ends -/

section Whole

variable (V : Valuation τ sig (Elt F))

/-- After all 43 operations the result buffer holds: where the mask of argument 1 is set, the expert of arguments
    0, 5, 6, 7; elsewhere the expert of arguments 0, 2, 3, 4. -/
theorem ops_v21 : after (segA ++ segB) V (Proc.devRef .tc main_v21)
    = pick (refMask (V (Proc.devRef .tc main_arg1)))
        (expertTerm (V (Proc.devRef .tc main_arg0)) (V (Proc.devRef .tc main_arg5)) (V (Proc.devRef .tc main_arg6)) (V (Proc.devRef .tc main_arg7)))
        (expertTerm (V (Proc.devRef .tc main_arg0)) (V (Proc.devRef .tc main_arg2)) (V (Proc.devRef .tc main_arg3)) (V (Proc.devRef .tc main_arg4))) := by
  rw [StableHlo.after_append, segB_v21, segA_v9, segA_v14, segA_arg0, segA_arg2, segA_arg3, segA_arg4]

theorem ops_arg0 : after (segA ++ segB) V (Proc.devRef .tc main_arg0) = V (Proc.devRef .tc main_arg0) := by
  rw [StableHlo.after_append, segB_arg0, segA_arg0]
theorem ops_arg1 : after (segA ++ segB) V (Proc.devRef .tc main_arg1) = V (Proc.devRef .tc main_arg1) := by
  rw [StableHlo.after_append, segB_arg1, segA_arg1]
theorem ops_arg2 : after (segA ++ segB) V (Proc.devRef .tc main_arg2) = V (Proc.devRef .tc main_arg2) := by
  rw [StableHlo.after_append, segB_arg2, segA_arg2]
theorem ops_arg3 : after (segA ++ segB) V (Proc.devRef .tc main_arg3) = V (Proc.devRef .tc main_arg3) := by
  rw [StableHlo.after_append, segB_arg3, segA_arg3]
theorem ops_arg4 : after (segA ++ segB) V (Proc.devRef .tc main_arg4) = V (Proc.devRef .tc main_arg4) := by
  rw [StableHlo.after_append, segB_arg4, segA_arg4]
theorem ops_arg5 : after (segA ++ segB) V (Proc.devRef .tc main_arg5) = V (Proc.devRef .tc main_arg5) := by
  rw [StableHlo.after_append, segB_arg5, segA_arg5]
theorem ops_arg6 : after (segA ++ segB) V (Proc.devRef .tc main_arg6) = V (Proc.devRef .tc main_arg6) := by
  rw [StableHlo.after_append, segB_arg6, segA_arg6]
theorem ops_arg7 : after (segA ++ segB) V (Proc.devRef .tc main_arg7) = V (Proc.devRef .tc main_arg7) := by
  rw [StableHlo.after_append, segB_arg7, segA_arg7]

end Whole

/-! ## Reading at an index, at the ideal instance

At the ideal instance a `dot_general` element is the finite sum over its one contracted axis of the products of the
operands' elements.  The first contraction (over the 4096 features) reads the tokens at (b, s, h) and the weight at (h, i);
the second (over the 11008 intermediate features) reads the gated product at (b, s, i) and the weight at (i, j). -/

section AtIndex

/-! The operand indices of the two contractions, coordinate by coordinate. -/

theorem upL0 (j : S2x2048x11008.Idx) (q : dot_S2x2048x4096_S4096x11008_S2x2048x11008_2_0_01_1_n_n.contr.Idx) : (dot_S2x2048x4096_S4096x11008_S2x2048x11008_2_0_01_1_n_n.lhsIdx j q 0).val = (j 0).val := by
  unfold DotDims.lhsIdx
  rw [dif_neg (show ¬(0 : Fin S2x2048x4096.rank) ∈ dot_S2x2048x4096_S4096x11008_S2x2048x11008_2_0_01_1_n_n.lhsBatch by decide), dif_pos (show (0 : Fin S2x2048x4096.rank) ∈ dot_S2x2048x4096_S4096x11008_S2x2048x11008_2_0_01_1_n_n.lhsNonContracting by decide)]
  rfl
theorem upL1 (j : S2x2048x11008.Idx) (q : dot_S2x2048x4096_S4096x11008_S2x2048x11008_2_0_01_1_n_n.contr.Idx) : (dot_S2x2048x4096_S4096x11008_S2x2048x11008_2_0_01_1_n_n.lhsIdx j q 1).val = (j 1).val := by
  unfold DotDims.lhsIdx
  rw [dif_neg (show ¬(1 : Fin S2x2048x4096.rank) ∈ dot_S2x2048x4096_S4096x11008_S2x2048x11008_2_0_01_1_n_n.lhsBatch by decide), dif_pos (show (1 : Fin S2x2048x4096.rank) ∈ dot_S2x2048x4096_S4096x11008_S2x2048x11008_2_0_01_1_n_n.lhsNonContracting by decide)]
  rfl
theorem upL2 (j : S2x2048x11008.Idx) (q : dot_S2x2048x4096_S4096x11008_S2x2048x11008_2_0_01_1_n_n.contr.Idx) : (dot_S2x2048x4096_S4096x11008_S2x2048x11008_2_0_01_1_n_n.lhsIdx j q 2).val = (q ⟨0, by decide⟩).val :=
  dot_S2x2048x4096_S4096x11008_S2x2048x11008_2_0_01_1_n_n.lhsIdx_val_of_single rfl j q
theorem upR0 (j : S2x2048x11008.Idx) (q : dot_S2x2048x4096_S4096x11008_S2x2048x11008_2_0_01_1_n_n.contr.Idx) : (dot_S2x2048x4096_S4096x11008_S2x2048x11008_2_0_01_1_n_n.rhsIdx j q 0).val = (q ⟨0, by decide⟩).val :=
  dot_S2x2048x4096_S4096x11008_S2x2048x11008_2_0_01_1_n_n.rhsIdx_val_of_single rfl j q
theorem upR1 (j : S2x2048x11008.Idx) (q : dot_S2x2048x4096_S4096x11008_S2x2048x11008_2_0_01_1_n_n.contr.Idx) : (dot_S2x2048x4096_S4096x11008_S2x2048x11008_2_0_01_1_n_n.rhsIdx j q 1).val = (j 2).val := by
  unfold DotDims.rhsIdx
  rw [dif_neg (show ¬(1 : Fin S4096x11008.rank) ∈ dot_S2x2048x4096_S4096x11008_S2x2048x11008_2_0_01_1_n_n.rhsBatch by decide), dif_pos (show (1 : Fin S4096x11008.rank) ∈ dot_S2x2048x4096_S4096x11008_S2x2048x11008_2_0_01_1_n_n.rhsNonContracting by decide)]
  rfl

theorem downL0 (j : S2x2048x4096.Idx) (q : dot_S2x2048x11008_S11008x4096_S2x2048x4096_2_0_01_1_n_n.contr.Idx) : (dot_S2x2048x11008_S11008x4096_S2x2048x4096_2_0_01_1_n_n.lhsIdx j q 0).val = (j 0).val := by
  unfold DotDims.lhsIdx
  rw [dif_neg (show ¬(0 : Fin S2x2048x11008.rank) ∈ dot_S2x2048x11008_S11008x4096_S2x2048x4096_2_0_01_1_n_n.lhsBatch by decide), dif_pos (show (0 : Fin S2x2048x11008.rank) ∈ dot_S2x2048x11008_S11008x4096_S2x2048x4096_2_0_01_1_n_n.lhsNonContracting by decide)]
  rfl
theorem downL1 (j : S2x2048x4096.Idx) (q : dot_S2x2048x11008_S11008x4096_S2x2048x4096_2_0_01_1_n_n.contr.Idx) : (dot_S2x2048x11008_S11008x4096_S2x2048x4096_2_0_01_1_n_n.lhsIdx j q 1).val = (j 1).val := by
  unfold DotDims.lhsIdx
  rw [dif_neg (show ¬(1 : Fin S2x2048x11008.rank) ∈ dot_S2x2048x11008_S11008x4096_S2x2048x4096_2_0_01_1_n_n.lhsBatch by decide), dif_pos (show (1 : Fin S2x2048x11008.rank) ∈ dot_S2x2048x11008_S11008x4096_S2x2048x4096_2_0_01_1_n_n.lhsNonContracting by decide)]
  rfl
theorem downL2 (j : S2x2048x4096.Idx) (q : dot_S2x2048x11008_S11008x4096_S2x2048x4096_2_0_01_1_n_n.contr.Idx) : (dot_S2x2048x11008_S11008x4096_S2x2048x4096_2_0_01_1_n_n.lhsIdx j q 2).val = (q ⟨0, by decide⟩).val :=
  dot_S2x2048x11008_S11008x4096_S2x2048x4096_2_0_01_1_n_n.lhsIdx_val_of_single rfl j q
theorem downR0 (j : S2x2048x4096.Idx) (q : dot_S2x2048x11008_S11008x4096_S2x2048x4096_2_0_01_1_n_n.contr.Idx) : (dot_S2x2048x11008_S11008x4096_S2x2048x4096_2_0_01_1_n_n.rhsIdx j q 0).val = (q ⟨0, by decide⟩).val :=
  dot_S2x2048x11008_S11008x4096_S2x2048x4096_2_0_01_1_n_n.rhsIdx_val_of_single rfl j q
theorem downR1 (j : S2x2048x4096.Idx) (q : dot_S2x2048x11008_S11008x4096_S2x2048x4096_2_0_01_1_n_n.contr.Idx) : (dot_S2x2048x11008_S11008x4096_S2x2048x4096_2_0_01_1_n_n.rhsIdx j q 1).val = (j 2).val := by
  unfold DotDims.rhsIdx
  rw [dif_neg (show ¬(1 : Fin S11008x4096.rank) ∈ dot_S2x2048x11008_S11008x4096_S2x2048x4096_2_0_01_1_n_n.rhsBatch by decide), dif_pos (show (1 : Fin S11008x4096.rank) ∈ dot_S2x2048x11008_S11008x4096_S2x2048x4096_2_0_01_1_n_n.rhsNonContracting by decide)]
  rfl

/-- The contraction over the 4096 features:  ∑ₕ y[b,s,h] · w[h,i]. -/
theorem upDot_apply (y : (⟨S2x2048x4096, .f32⟩ : BufTy).Contents (Elt Ideal)) (w : (⟨S4096x11008, .f32⟩ : BufTy).Contents (Elt Ideal)) (b : Fin 2) (s : Fin 2048) (i : Fin 11008) :
    Host.dotGeneral (F := Ideal) (φ₁ := .f32) (φ₂ := .f32) dot_S2x2048x4096_S4096x11008_S2x2048x11008_2_0_01_1_n_n none y w (ix3 b s i) = ∑ k : Fin 4096, y (ix3 b s k) * w (ix2 k i) := by
  simp only [Host.dotGeneral]
  rw [Ideal.dotGeneral_apply, ← Equiv.sum_comp (ValueIdx.contrEquiv1 dot_S2x2048x4096_S4096x11008_S2x2048x11008_2_0_01_1_n_n 4096 rfl rfl).symm]
  refine Finset.sum_congr rfl fun k _ => ?_
  have hk := ValueIdx.contrEquiv1_symm_val dot_S2x2048x4096_S4096x11008_S2x2048x11008_2_0_01_1_n_n 4096 rfl rfl k
  have el : dot_S2x2048x4096_S4096x11008_S2x2048x11008_2_0_01_1_n_n.lhsIdx (ix3 b s i) ((ValueIdx.contrEquiv1 dot_S2x2048x4096_S4096x11008_S2x2048x11008_2_0_01_1_n_n 4096 rfl rfl).symm k) = ix3 b s k := funext fun a => Fin.ext (by
    match a with
    | ⟨0, _⟩ => exact upL0 _ _
    | ⟨1, _⟩ => exact upL1 _ _
    | ⟨2, _⟩ => exact (upL2 _ _).trans hk)
  have er : dot_S2x2048x4096_S4096x11008_S2x2048x11008_2_0_01_1_n_n.rhsIdx (ix3 b s i) ((ValueIdx.contrEquiv1 dot_S2x2048x4096_S4096x11008_S2x2048x11008_2_0_01_1_n_n 4096 rfl rfl).symm k) = ix2 k i := funext fun a => Fin.ext (by
    match a with
    | ⟨0, _⟩ => exact (upR0 _ _).trans hk
    | ⟨1, _⟩ => exact upR1 _ _)
  rw [el, er]

/-- The contraction over the 11008 intermediate features:  ∑ᵢ y[b,s,i] · w[i,j]. -/
theorem downDot_apply (y : (⟨S2x2048x11008, .f32⟩ : BufTy).Contents (Elt Ideal)) (w : (⟨S11008x4096, .f32⟩ : BufTy).Contents (Elt Ideal)) (b : Fin 2) (s : Fin 2048) (i : Fin 4096) :
    Host.dotGeneral (F := Ideal) (φ₁ := .f32) (φ₂ := .f32) dot_S2x2048x11008_S11008x4096_S2x2048x4096_2_0_01_1_n_n none y w (ix3 b s i) = ∑ k : Fin 11008, y (ix3 b s k) * w (ix2 k i) := by
  simp only [Host.dotGeneral]
  rw [Ideal.dotGeneral_apply, ← Equiv.sum_comp (ValueIdx.contrEquiv1 dot_S2x2048x11008_S11008x4096_S2x2048x4096_2_0_01_1_n_n 11008 rfl rfl).symm]
  refine Finset.sum_congr rfl fun k _ => ?_
  have hk := ValueIdx.contrEquiv1_symm_val dot_S2x2048x11008_S11008x4096_S2x2048x4096_2_0_01_1_n_n 11008 rfl rfl k
  have el : dot_S2x2048x11008_S11008x4096_S2x2048x4096_2_0_01_1_n_n.lhsIdx (ix3 b s i) ((ValueIdx.contrEquiv1 dot_S2x2048x11008_S11008x4096_S2x2048x4096_2_0_01_1_n_n 11008 rfl rfl).symm k) = ix3 b s k := funext fun a => Fin.ext (by
    match a with
    | ⟨0, _⟩ => exact downL0 _ _
    | ⟨1, _⟩ => exact downL1 _ _
    | ⟨2, _⟩ => exact (downL2 _ _).trans hk)
  have er : dot_S2x2048x11008_S11008x4096_S2x2048x4096_2_0_01_1_n_n.rhsIdx (ix3 b s i) ((ValueIdx.contrEquiv1 dot_S2x2048x11008_S11008x4096_S2x2048x4096_2_0_01_1_n_n 11008 rfl rfl).symm k) = ix2 k i := funext fun a => Fin.ext (by
    match a with
    | ⟨0, _⟩ => exact (downR0 _ _).trans hk
    | ⟨1, _⟩ => exact downR1 _ _)
  rw [el, er]

/-- A projection at an index is the specification's projection. -/
theorem up_apply (x : (⟨S2x2048x4096, .f32⟩ : BufTy).Contents (Elt Ideal)) (w : (⟨S4096x11008, .f32⟩ : BufTy).Contents (Elt Ideal)) (b : Fin 2) (s : Fin 2048) (i : Fin 11008) :
    up (F := Ideal) x w (ix3 b s i) = Cert.Spec.proj x w b s i := by
  exact upDot_apply x w b s i

/-- The activation at an index.  The program spells the logistic function as  1 / (1 + e^(-g))  with the float word of
    1.0 broadcast; that word is the extended real 1, and  1 / (1 + e^(-g))  is the logistic function by definition. -/
theorem silu_apply (g : (⟨S2x2048x11008, .f32⟩ : BufTy).Contents (Elt Ideal)) (j : S2x2048x11008.Idx) :
    silu (F := Ideal) g j = g j * Ideal.logistic (g j) := by
  show g j * Ideal.div (Ideal.ofBits .f32 0x3F800000#32) (Ideal.ofBits .f32 0x3F800000#32 + Ideal.exp (-(g j))) = g j * Ideal.logistic (g j)
  rw [Ideal.ofBits_one_f32]
  rfl

/-- One expert at an index is the specification's expert. -/
theorem expertTerm_apply (x : (⟨S2x2048x4096, .f32⟩ : BufTy).Contents (Elt Ideal)) (wg wu : (⟨S4096x11008, .f32⟩ : BufTy).Contents (Elt Ideal)) (wd : (⟨S11008x4096, .f32⟩ : BufTy).Contents (Elt Ideal)) (b : Fin 2) (s : Fin 2048) (f : Fin 4096) :
    expertTerm (F := Ideal) x wg wu wd (ix3 b s f) = Cert.Spec.expert x wg wu wd b s f := by
  show Host.dotGeneral (F := Ideal) (φ₁ := .f32) (φ₂ := .f32) dot_S2x2048x11008_S11008x4096_S2x2048x4096_2_0_01_1_n_n none (mulf (silu (up x wg)) (up x wu)) wd (ix3 b s f)
      = ∑ i : Fin 11008, Cert.Spec.act x wg wu b s i * wd (ix2 i f)
  rw [downDot_apply]
  refine Finset.sum_congr rfl fun i _ => ?_
  rw [mulf_apply, silu_apply, up_apply, up_apply]
  rfl

/-- The selection at an index: the mask is read at the token (b, s), whatever the feature. -/
theorem pick_apply (mk : (⟨S2x2048, .i1⟩ : BufTy).Contents (Elt Ideal)) (u v : (⟨S2x2048x4096, .f32⟩ : BufTy).Contents (Elt Ideal)) (b : Fin 2) (s : Fin 2048) (f : Fin 4096) :
    pick (F := Ideal) mk u v (ix3 b s f) = Scalar.select (mk (ix2 b s)) (u (ix3 b s f)) (v (ix3 b s f)) := by
  unfold pick
  rw [select_apply,
    broadcastInDim_apply _ bcast_S2x2048x1_S2x2048x4096_0_1_2 _ (ix3 b s f) (ix3 b s (0 : Fin 1)) (fun a => match a with
      | ⟨0, _⟩ => by show b.val = if (2 : Nat) = 1 then 0 else b.val; rw [if_neg (by decide)]
      | ⟨1, _⟩ => by show s.val = if (2048 : Nat) = 1 then 0 else s.val; rw [if_neg (by decide)]
      | ⟨2, _⟩ => by show 0 = if (1 : Nat) = 1 then 0 else f.val; rw [if_pos rfl]),
    broadcastInDim_apply _ bcast_S2x2048_S2x2048x1_0_1 mk (ix3 b s (0 : Fin 1)) (ix2 b s) (fun a => match a with
      | ⟨0, _⟩ => by show b.val = if (2 : Nat) = 1 then 0 else b.val; rw [if_neg (by decide)]
      | ⟨1, _⟩ => by show s.val = if (2048 : Nat) = 1 then 0 else s.val; rw [if_neg (by decide)])]

/-- The composed term is the specification's layer: language weights first there, vision weights first in the selection. -/
theorem pick_eq_layer (x : (⟨S2x2048x4096, .f32⟩ : BufTy).Contents (Elt Ideal)) (mk : (⟨S2x2048, .i1⟩ : BufTy).Contents (Elt Ideal)) (lg lu : (⟨S4096x11008, .f32⟩ : BufTy).Contents (Elt Ideal)) (ld : (⟨S11008x4096, .f32⟩ : BufTy).Contents (Elt Ideal)) (vg vu : (⟨S4096x11008, .f32⟩ : BufTy).Contents (Elt Ideal)) (vd : (⟨S11008x4096, .f32⟩ : BufTy).Contents (Elt Ideal)) :
    pick (F := Ideal) mk (expertTerm x vg vu vd) (expertTerm x lg lu ld) = Cert.Spec.layer x mk lg lu ld vg vu vd := by
  funext j
  obtain ⟨b, s, f, rfl⟩ : ∃ (b : Fin 2) (s : Fin 2048) (f : Fin 4096), j = ix3 b s f := ⟨j 0, j 1, j 2, eq_ix3 j⟩
  rw [pick_apply, expertTerm_apply, expertTerm_apply]
  rfl

end AtIndex

/-! ## The run -/

set_option maxRecDepth 8192 in
/-- On every device, from any memory with zero counters: every weakly fair execution of the reference terminates with
    its result the specification's layer of its arguments — the mask that of argument 1, the language expert's weights
    arguments 2, 3, 4 and the vision expert's arguments 5, 6, 7 — and its arguments unchanged. -/
theorem run_layer (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = Cert.Spec.layer (m ((c.tc : Thread nD τ).loc main_arg0)) (refMask (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v21).trans ((ops_v21 _).trans (pick_eq_layer _ _ _ _ _ _ _ _)),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _)⟩)
    (run_seq scopedRefs_eq scopedSems_eq defs main (fun _ => ops) main_eq (fun _ => ops_sub) m ρ)

end Cert.ReferenceIdeal.RefValue

end
-- ==== Proof.lean ====
/-
  Both programs compute one gated two-expert feed-forward layer (Proof/Spec.lean): for each of 2 × 2048 tokens of 4096
  features, the output of the "vision" expert where a one-bit mask computed from the token types is set, of the
  "language" expert elsewhere; an expert projects a token onto 11008 intermediate features twice, combines the two as
  g · σ(g) · u  (σ the logistic function) and projects back.

  The reference does exactly that with whole-array contractions and a selection (Proof/RefSide.lean).  The kernel flattens
  the tokens to 4096 rows, turns the mask into a column of zeros and ones, and walks a grid of 8 row blocks × 86 blocks
  of 128 intermediate features, accumulating in the output block, per step,  vision · μ  and  language · (1 − μ)  with μ the
  row's mask value (Proof/CaseValue.lean, StepValue.lean, Blocks.lean, Result.lean, HostSide.lean).  Over the extended
  reals the two agree entry by entry: sums may be regrouped freely, and μ is exactly 0 or 1, so one expert's terms keep
  their values and the other's vanish (Proof/Tiles.lean, Select.lean, KernelRun.lean).  No finiteness of the inputs is
  needed for this.  Changing a value's number format does nothing to an extended real, so the kernel's idealization
  rewrote no operation and the third claim is trivial.
-/
import proofs.«137866_j65927747994049_2_alg».proof.Defs
import proofs.«137866_j65927747994049_2_alg».proof.Proof.Gen.Kernel
import proofs.«137866_j65927747994049_2_alg».proof.Proof.Gen.Kernel.Skeleton
import proofs.«137866_j65927747994049_2_alg».proof.Proof.Gen.Kernel.Launch
import proofs.«137866_j65927747994049_2_alg».proof.Proof.Gen.Kernel.Points
import proofs.«137866_j65927747994049_2_alg».proof.Proof.Gen.Kernel.Frame
import proofs.«137866_j65927747994049_2_alg».proof.Proof.Gen.KernelIdeal
import proofs.«137866_j65927747994049_2_alg».proof.Proof.Gen.KernelIdeal.Skeleton
import proofs.«137866_j65927747994049_2_alg».proof.Proof.Gen.KernelIdeal.Launch
import proofs.«137866_j65927747994049_2_alg».proof.Proof.Gen.KernelIdeal.Points
import proofs.«137866_j65927747994049_2_alg».proof.Proof.Gen.KernelIdeal.Frame
import proofs.«137866_j65927747994049_2_alg».proof.Proof.Gen.ReferenceIdeal
import proofs.«137866_j65927747994049_2_alg».proof.Proof.Gen.Pre_finite_inputs
import proofs.«137866_j65927747994049_2_alg».proof.Proof.KernelRun
import proofs.«137866_j65927747994049_2_alg».proof.Proof.RefSide
import Idealize.ShloMosaic.Adequacy
import Idealize.ShloMosaic.Init

noncomputable section

namespace Cert.Proof

open Idealize.ShloMosaic Idealize.SL.Sem

/-- The two programs compute the mask by the same operations of the token types: one term. -/
theorem mask_eq (x1 : (⟨Cert.KernelIdeal.S2x2048, .i32⟩ : BufTy).Contents (Elt Ideal)) :
    Cert.ReferenceIdeal.RefValue.refMask (F := Ideal) x1 = Cert.KernelIdeal.HostSide.mask x1 := rfl

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefValue.run_layer m ρ)

/-- From memories agreeing on the arguments both idealized programs end with the layer of those arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefValue.run_layer m' ρ')
  obtain ⟨e0, e1, e2, e3, e4, e5, e6, e7⟩ := hagree c
  rw [e0, e1, e2, e3, e4, e5, e6, e7, mask_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
